-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x8192x8192 : Shape := ⟨3, ![2, 8192, 8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2x8192x8192 : S_.BroadcastsInDim S2x8192x8192 (![] : Fin 0 → Fin S2x8192x8192.rank)
  reducesTo_S2x8192x8192_S_d0_1_2 : S2x8192x8192.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg11 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_v48 main_v49 main_v50

def fn_part1 {F : FTy → Type} [FloatOps F] (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S2x8192x8192 .f32) (main_arg2 : FVec F S128x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x64 .f32) (main_arg11 : FVec F S64 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2x8192x8192 .f32 := Host.absf main_arg1
  let main_cst_0 : FVec F S_ .f32 := constant S_ .f32 0x7F800000#32
  let main_v5 : FVec F S2x8192x8192 .f32 := broadcastInDim S2x8192x8192 ![] bcast_S_S2x8192x8192 main_cst_0
  let main_v6 : IVec S2x8192x8192 1 := cmpf .olt main_v4 main_v5
  let main_c_1 : IVec S_ 1 := constantI S_ 1 1#1
  let main_v7 : IVec S_ 1 := (fun x v => Host.reduce IntOp.andi x v reducesTo_S2x8192x8192_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S2x8192x8192 : Shape := ⟨3, ![2, 8192, 8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x128 : Shape := ⟨2, ![1, 128]⟩
abbrev S8192x64 : Shape := ⟨2, ![8192, 64]⟩
abbrev S1x512x8192 : Shape := ⟨3, ![1, 512, 8192]⟩
abbrev S512x64 : Shape := ⟨2, ![512, 64]⟩
abbrev S512x8192 : Shape := ⟨2, ![512, 8192]⟩
abbrev S512x128 : Shape := ⟨2, ![512, 128]⟩
abbrev S512 : Shape := ⟨1, ![512]⟩
abbrev S512x1 : Shape := ⟨2, ![512, 1]⟩
abbrev S1x64 : Shape := ⟨2, ![1, 64]⟩

abbrev nBuf : Space → Nat
  | .hbm => 22
  | .vmem => 22
  | .smem => 0
  | _ => 0

abbrev bufTy : (tb : Table) → Fin (tcTables nBuf tb) → BufTy
  | .hbm, ⟨0, _⟩ => ⟨S8192x128, .f32⟩
  | .hbm, ⟨1, _⟩ => ⟨S2x8192x8192, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S8192x128, .f32⟩
  | .hbm, ⟨13, _⟩ => ⟨S1x128, .f32⟩
  | .hbm, ⟨14, _⟩ => ⟨S1x128, .f32⟩
  | .hbm, ⟨15, _⟩ => ⟨S1x128, .f32⟩
  | .hbm, ⟨16, _⟩ => ⟨S8192x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S8192x64, .f32⟩
  | .local _ .vmem, ⟨0, _⟩ => ⟨S8192x128, .f32⟩
  | .local _ .vmem, ⟨1, _⟩ => ⟨S128x128, .f32⟩
  | .local _ .vmem, ⟨2, _⟩ => ⟨S8192x128, .f32⟩
  | .local _ .vmem, ⟨3, _⟩ => ⟨S1x512x8192, .f32⟩
  | .local _ .vmem, ⟨4, _⟩ => ⟨S1x512x8192, .f32⟩
  | .local _ .vmem, ⟨5, _⟩ => ⟨S8192x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x64, .f32⟩
  | .local _ .vmem, ⟨10, _⟩ => ⟨S512x64, .f32⟩
  | .local _ .vmem, ⟨11, _⟩ => ⟨S512x64, .f32⟩
  | .local _ .vmem, ⟨12, _⟩ => ⟨S1x512x8192, .f32⟩
  | .local _ .vmem, ⟨13, _⟩ => ⟨S1x512x8192, .f32⟩
  | .local _ .vmem, ⟨14, _⟩ => ⟨S8192x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S512x64, .f32⟩
  | .local _ .vmem, ⟨21, _⟩ => ⟨S512x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg6_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem6_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x512x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  inb_S1x512x8192_S1x512x8192_0_0_0 : ∀ a, (![0, 0, 0] : Fin 3 → Nat) a + S1x512x8192.size a ≤ S1x512x8192.size a
  h_S1x512x8192 : 0 < S1x512x8192.numel
  shapeCasts_S1x512x8192_S512x8192 : S1x512x8192.ShapeCasts S512x8192
  shapeCasts_S8192x128_S8192x128 : S8192x128.ShapeCasts S8192x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  reduces_S512x128_S512 : S512x128.Reduces [1] S512
  shapeCasts_S512_S512x1 : S512.ShapeCasts S512x1
  broadcasts_S512x1_S512x128 : S512x1.Broadcasts S512x128
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  shapeCasts_S64_S1x64 : S64.ShapeCasts S1x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  broadcasts_S512x1_S512x64 : S512x1.Broadcasts S512x64
  inb_S64x64_S64x64_0_0 : ∀ a, (![0, 0] : Fin 2 → Nat) a + S64x64.size a ≤ S64x64.size a
  h_S64x64 : 0 < S64x64.numel
  dot_S8192x128_S128x128_S8192x128_1_0_0_1_n_n_wf : DotDims.WF S8192x128 S128x128 S8192x128 [1] [0] [0] [1] [] []
  dot_S512x8192_S8192x128_S512x128_1_0_0_1_n_n_wf : DotDims.WF S512x8192 S8192x128 S512x128 [1] [0] [0] [1] [] []
  dot_S512x128_S128x64_S512x64_1_0_0_1_n_n_wf : DotDims.WF S512x128 S128x64 S512x64 [1] [0] [0] [1] [] []
  dot_S512x8192_S8192x64_S512x64_1_0_0_1_n_n_wf : DotDims.WF S512x8192 S8192x64 S512x64 [1] [0] [0] [1] [] []
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .f32 = 32 ∨ (Rect.block (s := S8192x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x8192.size a ≤ S2x8192x8192.size a
  hwx1_0 : ∀ i : grid1.Coords, EltTy.bits .f32 = 32 ∨ (Rect.block (s := S2x8192x8192) S1x512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x64.size a ≤ S8192x64.size a
  hwx1_6 : ∀ i : grid1.Coords, EltTy.bits .f32 = 32 ∨ (Rect.block (s := S8192x64) S512x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x8192.size a ≤ S2x8192x8192.size a
  hwx2_0 : ∀ i : grid2.Coords, EltTy.bits .f32 = 32 ∨ (Rect.block (s := S2x8192x8192) S1x512x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x64.size a ≤ S8192x64.size a
  hwx2_7 : ∀ i : grid2.Coords, EltTy.bits .f32 = 32 ∨ (Rect.block (s := S8192x64) S512x64.size (cc2_transform_7 i) (hinb2_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S512x8192_S8192x128_S512x128_1_0_0_1_n_n : DotDims S512x8192 S8192x128 S512x128 where
  lhsContracting := [1]
  rhsContracting := [0]
  lhsNonContracting := [0]
  rhsNonContracting := [1]
  lhsBatch := []
  rhsBatch := []
  wf := dot_S512x8192_S8192x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x8192_S8192x64_S512x64_1_0_0_1_n_n : DotDims S512x8192 S8192x64 S512x64 where
  lhsContracting := [1]
  rhsContracting := [0]
  lhsNonContracting := [0]
  rhsNonContracting := [1]
  lhsBatch := []
  rhsBatch := []
  wf := dot_S512x8192_S8192x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S512x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S1x512x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v9) S512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8192x128 : Shape := ⟨2, ![8192, 128]⟩
abbrev S2x8192x8192 : Shape := ⟨3, ![2, 8192, 8192]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x8192x8192 : Shape := ⟨3, ![1, 8192, 8192]⟩
abbrev S8192x8192 : Shape := ⟨2, ![8192, 8192]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S8192x64 : Shape := ⟨2, ![8192, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x8192x8192, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S1x8192x8192, .f32⟩
  | .hbm, ⟨13, _⟩ => ⟨S8192x8192, .f32⟩
  | .hbm, ⟨14, _⟩ => ⟨S8192x128, .f32⟩
  | .hbm, ⟨15, _⟩ => ⟨S8192x128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x128, .f32⟩
  | .hbm, ⟨35, _⟩ => ⟨S8192x128, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x128, .f32⟩
  | .hbm, ⟨41, _⟩ => ⟨S8192x128, .f32⟩
  | .hbm, ⟨42, _⟩ => ⟨S1x128, .f32⟩
  | .hbm, ⟨43, _⟩ => ⟨S8192x128, .f32⟩
  | .hbm, ⟨44, _⟩ => ⟨S8192x128, .f32⟩
  | .hbm, ⟨45, _⟩ => ⟨S1x128, .f32⟩
  | .hbm, ⟨46, _⟩ => ⟨S8192x128, .f32⟩
  | .hbm, ⟨47, _⟩ => ⟨S8192x128, .f32⟩
  | .hbm, ⟨48, _⟩ => ⟨S1x8192x8192, .f32⟩
  | .hbm, ⟨49, _⟩ => ⟨S8192x8192, .f32⟩
  | .hbm, ⟨50, _⟩ => ⟨S8192x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x64, .f32⟩
  | .hbm, ⟨71, _⟩ => ⟨S8192x64, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S8192x1, .f32⟩
  | .hbm, ⟨76, _⟩ => ⟨S8192x64, .f32⟩
  | .hbm, ⟨77, _⟩ => ⟨S8192x64, .f32⟩
  | .hbm, ⟨78, _⟩ => ⟨S1x64, .f32⟩
  | .hbm, ⟨79, _⟩ => ⟨S8192x64, .f32⟩
  | .hbm, ⟨80, _⟩ => ⟨S8192x64, .f32⟩
  | .hbm, ⟨81, _⟩ => ⟨S1x64, .f32⟩
  | .hbm, ⟨82, _⟩ => ⟨S8192x64, .f32⟩
  | .hbm, ⟨83, _⟩ => ⟨S8192x64, .f32⟩
  | .hbm, ⟨84, _⟩ => ⟨S_, .f32⟩
  | .hbm, ⟨85, _⟩ => ⟨S_, .f32⟩
  | .hbm, ⟨86, _⟩ => ⟨S8192x64, .f32⟩
  | .hbm, ⟨87, _⟩ => ⟨S8192x64, .i1⟩
  | .hbm, ⟨88, _⟩ => ⟨S_, .f32⟩
  | .hbm, ⟨89, _⟩ => ⟨S8192x64, .f32⟩
  | .hbm, ⟨90, _⟩ => ⟨S8192x64, .f32⟩
  | .hbm, ⟨91, _⟩ => ⟨S8192x64, .f32⟩
  | .hbm, ⟨92, _⟩ => ⟨S8192x64, .f32⟩
  | .hbm, ⟨93, _⟩ => ⟨S1x64, .f32⟩
  | .hbm, ⟨94, _⟩ => ⟨S8192x64, .f32⟩
  | .hbm, ⟨95, _⟩ => ⟨S8192x64, .f32⟩
  | .hbm, ⟨96, _⟩ => ⟨S_, .f32⟩
  | .hbm, ⟨97, _⟩ => ⟨S8192, .f32⟩
  | .hbm, ⟨98, _⟩ => ⟨S_, .f32⟩
  | .hbm, ⟨99, _⟩ => ⟨S8192, .f32⟩
  | .hbm, ⟨100, _⟩ => ⟨S8192, .f32⟩
  | .hbm, ⟨101, _⟩ => ⟨S8192x1, .f32⟩
  | .hbm, ⟨102, _⟩ => ⟨S8192x64, .f32⟩
  | .hbm, ⟨103, _⟩ => ⟨S8192x64, .f32⟩
  | .hbm, ⟨104, _⟩ => ⟨S8192x64, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1, .f32⟩
  | .hbm, ⟨109, _⟩ => ⟨S8192x64, .f32⟩
  | .hbm, ⟨110, _⟩ => ⟨S8192x64, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v67 : Ref sig .tc := ⟨.hbm, 110, rfl⟩

abbrev nD : Nat := 1
abbrev τ : Topo := Topo.v7x

variable {F : FTy → Type} [FloatOps F]

class Facts₀ : Prop where
  slices_S2x8192x8192_S1x8192x8192_0_0_0 : S2x8192x8192.Slices ![0, 0, 0] S1x8192x8192
  shapeCasts_S1x8192x8192_S8192x8192 : S1x8192x8192.ShapeCasts S8192x8192
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  slices_S2x8192x8192_S1x8192x8192_1_0_0 : S2x8192x8192.Slices ![1, 0, 0] S1x8192x8192
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S_S8192 : S_.BroadcastsInDim S8192 (![] : Fin 0 → Fin S8192.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x64_S8192x64_1_0_0_1_n_n_wf : DotDims.WF S8192x64 S64x64 S8192x64 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.KRunExposed.lean ====
/-
  The run of the three kernels and the host reshapes between them, with the result array exposed: every execution
  terminates without fault, the result buffer ends at the contents the last boundary of the run records for it, and
  the twelve argument arrays end as launched.
-/
import proofs.«127625_g41712722379509_cont_8to1_b_1307_6_alg».proof.Proof.Gen.KernelIdeal
import proofs.«127625_g41712722379509_cont_8to1_b_1307_6_alg».proof.Proof.Gen.KernelIdeal.Frame

set_option maxRecDepth 16384

noncomputable section

namespace Cert.KernelIdeal.KRunExposed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at what the last
    boundary's contents hold for it, and every argument array ends as launched. -/
theorem run_exposed : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.KRunExposed

end
-- ==== Proof.KRunWalk.lean ====
/-
  What the buffers hold when the second and the third kernel are entered, read back to the launch: an argument array
  nobody has written is as launched; a reshaped vector [1, n] reads, at (0, k), the argument vector at k; an
  intermediate array is what the kernel before left in it.
-/
import proofs.«127625_g41712722379509_cont_8to1_b_1307_6_alg».proof.Proof.Gen.KernelIdeal
import proofs.«127625_g41712722379509_cont_8to1_b_1307_6_alg».proof.Proof.Gen.KernelIdeal.Frame
import Idealize.ShloMosaic.Lib.StableHlo.Run
import Idealize.ShloMosaic.Lib.ValueLayout

noncomputable section

namespace Cert.KernelIdeal.KRunWalk

open Cert.KernelIdeal Cert.KernelIdeal.Gen
open Idealize.ShloMosaic Idealize.ShloMosaic.TcCoe Idealize.ShloMosaic.ValueIdx Idealize.SL.Sem

variable {F : FTy → Type} [FloatOps F]

/-! ## The two stretches of reshapes, at any contents -/

/-- The first stretch writes its three results only. -/
theorem keep1 (W : Valuation τ sig (Elt F)) (b : Ref sig .tc) (h1 : b ≠ main_v1) (h2 : b ≠ main_v2) (h3 : b ≠ main_v3) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2, StableHlo.devRef_ne_of_ne h3⟩))

/-- The second stretch writes its four results only. -/
theorem keep2 (W : Valuation τ sig (Elt F)) (b : Ref sig .tc) (h5 : b ≠ main_v5) (h6 : b ≠ main_v6) (h7 : b ≠ main_v7)
    (h8 : b ≠ main_v8) : StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h5, StableHlo.devRef_ne_of_ne h6, StableHlo.devRef_ne_of_ne h7,
      StableHlo.devRef_ne_of_ne h8⟩))

/-- The first stretch's results: each the reshape of its operand as the stretch finds it. -/
theorem cast_v1 (W : Valuation τ sig (Elt F)) :
    StableHlo.after hostOps1 W (Proc.devRef .tc main_v1)
      = shapeCast S1x128 (s := S128) (W (Proc.devRef .tc main_arg3)) shapeCasts_S128_S1x128 := by
  after_results; rfl
theorem cast_v2 (W : Valuation τ sig (Elt F)) :
    StableHlo.after hostOps1 W (Proc.devRef .tc main_v2)
      = shapeCast S1x128 (s := S128) (W (Proc.devRef .tc main_arg4)) shapeCasts_S128_S1x128 := by
  after_results; rfl
theorem cast_v3 (W : Valuation τ sig (Elt F)) :
    StableHlo.after hostOps1 W (Proc.devRef .tc main_v3)
      = shapeCast S1x128 (s := S128) (W (Proc.devRef .tc main_arg5)) shapeCasts_S128_S1x128 := by
  after_results; rfl

/-- The second stretch's results. -/
theorem cast_v5 (W : Valuation τ sig (Elt F)) :
    StableHlo.after hostOps2 W (Proc.devRef .tc main_v5)
      = shapeCast S1x64 (s := S64) (W (Proc.devRef .tc main_arg7)) shapeCasts_S64_S1x64 := by
  after_results; rfl
theorem cast_v6 (W : Valuation τ sig (Elt F)) :
    StableHlo.after hostOps2 W (Proc.devRef .tc main_v6)
      = shapeCast S1x64 (s := S64) (W (Proc.devRef .tc main_arg8)) shapeCasts_S64_S1x64 := by
  after_results; rfl
theorem cast_v7 (W : Valuation τ sig (Elt F)) :
    StableHlo.after hostOps2 W (Proc.devRef .tc main_v7)
      = shapeCast S1x64 (s := S64) (W (Proc.devRef .tc main_arg9)) shapeCasts_S64_S1x64 := by
  after_results; rfl
theorem cast_v8 (W : Valuation τ sig (Elt F)) :
    StableHlo.after hostOps2 W (Proc.devRef .tc main_v8)
      = shapeCast S1x64 (s := S64) (W (Proc.devRef .tc main_arg11)) shapeCasts_S64_S1x64 := by
  after_results; rfl

/-! ## The run's boundaries, read back to the launch (at the extended reals) -/

section Walk

variable (m : (ℓ : Loc nD τ sig) → Buf (Elt Ideal) ℓ) (ρ : Dev nD → PrngReg) (c : Dev nD)

/-! ### When the second kernel is entered -/

/-- The adjacency stack is as launched. -/
theorem in1_adj : V2 m ρ c main_arg1 = m ((c : Thread nD τ).loc main_arg1) :=
  (keep1 (W1 m ρ c) main_arg1 (by decide) (by decide) (by decide)).trans (W1_of_ne m ρ c main_arg1 (by decide))

/-- W₁ is as launched. -/
theorem in1_w : V2 m ρ c main_arg6 = m ((c : Thread nD τ).loc main_arg6) :=
  (keep1 (W1 m ρ c) main_arg6 (by decide) (by decide) (by decide)).trans (W1_of_ne m ρ c main_arg6 (by decide))

/-- The product array is what the first kernel left. -/
theorem in1_s : V2 m ρ c main_v0 = (dat0 (V0 m ρ) c).arrAt 2 cfg0.N :=
  (keep1 (W1 m ρ c) main_v0 (by decide) (by decide) (by decide)).trans (W1_arr m ρ c 2)

/-- The three reshaped vectors of length 128: at (0, k), the argument vector at k. -/
theorem in1_b (k : Fin 128) : (V2 m ρ c main_v1 : S1x128.Idx → EReal) (ix2 (0 : Fin 1) k)
    = (m ((c : Thread nD τ).loc main_arg3) : S128.Idx → EReal) (ix1 k) := by
  rw [show V2 m ρ c main_v1 = _ from cast_v1 (W1 m ρ c), shapeCast_a_1a_apply]
  exact congrFun (W1_of_ne m ρ c main_arg3 (by decide)) (ix1 k)
theorem in1_g (k : Fin 128) : (V2 m ρ c main_v2 : S1x128.Idx → EReal) (ix2 (0 : Fin 1) k)
    = (m ((c : Thread nD τ).loc main_arg4) : S128.Idx → EReal) (ix1 k) := by
  rw [show V2 m ρ c main_v2 = _ from cast_v2 (W1 m ρ c), shapeCast_a_1a_apply]
  exact congrFun (W1_of_ne m ρ c main_arg4 (by decide)) (ix1 k)
theorem in1_be (k : Fin 128) : (V2 m ρ c main_v3 : S1x128.Idx → EReal) (ix2 (0 : Fin 1) k)
    = (m ((c : Thread nD τ).loc main_arg5) : S128.Idx → EReal) (ix1 k) := by
  rw [show V2 m ρ c main_v3 = _ from cast_v3 (W1 m ρ c), shapeCast_a_1a_apply]
  exact congrFun (W1_of_ne m ρ c main_arg5 (by decide)) (ix1 k)

/-! ### When the third kernel is entered -/

/-- A buffer that neither stretch of reshapes nor the first two kernels write is as launched. -/
theorem in2_of_untouched (b : Ref sig .tc) (h1 : b ≠ main_v1) (h2 : b ≠ main_v2) (h3 : b ≠ main_v3) (h5 : b ≠ main_v5)
    (h6 : b ≠ main_v6) (h7 : b ≠ main_v7) (h8 : b ≠ main_v8) (hr1 : ∀ w, Pipeline.arrRef spec1 w ≠ b)
    (hr0 : ∀ w, Pipeline.arrRef spec0 w ≠ b) : W3 m ρ c (Proc.devRef .tc b) = m ((c : Thread nD τ).loc b) :=
  (W3_of_ne m ρ c b hr1).trans ((keep1 (W1 m ρ c) b h1 h2 h3).trans (W1_of_ne m ρ c b hr0))

/-- The adjacency stack is as launched: the second kernel only read it. -/
theorem in2_adj : V4 m ρ c main_arg1 = m ((c : Thread nD τ).loc main_arg1) :=
  (keep2 (W3 m ρ c) main_arg1 (by decide) (by decide) (by decide) (by decide)).trans
    ((W3_arr m ρ c 0).trans ((((dat1 (V2 m ρ) c).arrAt_in 0 rfl _).trans (A_eq1 (V2 m ρ) c 0)).trans (in1_adj m ρ c)))

/-- Wl is as launched. -/
theorem in2_w : V4 m ρ c main_arg10 = m ((c : Thread nD τ).loc main_arg10) :=
  (keep2 (W3 m ρ c) main_arg10 (by decide) (by decide) (by decide) (by decide)).trans
    (in2_of_untouched m ρ c main_arg10 (by decide) (by decide) (by decide) (by decide) (by decide) (by decide) (by decide)
      (by decide) (by decide))

/-- The first layer's output is what the second kernel left. -/
theorem in2_s : V4 m ρ c main_v4 = (dat1 (V2 m ρ) c).arrAt 6 cfg1.N :=
  (keep2 (W3 m ρ c) main_v4 (by decide) (by decide) (by decide) (by decide)).trans (W3_arr m ρ c 6)

/-- The four reshaped vectors of length 64: at (0, k), the argument vector at k. -/
theorem in2_b (k : Fin 64) : (V4 m ρ c main_v5 : S1x64.Idx → EReal) (ix2 (0 : Fin 1) k)
    = (m ((c : Thread nD τ).loc main_arg7) : S64.Idx → EReal) (ix1 k) := by
  rw [show V4 m ρ c main_v5 = _ from cast_v5 (W3 m ρ c), shapeCast_a_1a_apply]
  exact congrFun (in2_of_untouched m ρ c main_arg7 (by decide) (by decide) (by decide) (by decide) (by decide) (by decide)
    (by decide) (by decide) (by decide)) (ix1 k)
theorem in2_g (k : Fin 64) : (V4 m ρ c main_v6 : S1x64.Idx → EReal) (ix2 (0 : Fin 1) k)
    = (m ((c : Thread nD τ).loc main_arg8) : S64.Idx → EReal) (ix1 k) := by
  rw [show V4 m ρ c main_v6 = _ from cast_v6 (W3 m ρ c), shapeCast_a_1a_apply]
  exact congrFun (in2_of_untouched m ρ c main_arg8 (by decide) (by decide) (by decide) (by decide) (by decide) (by decide)
    (by decide) (by decide) (by decide)) (ix1 k)
theorem in2_be (k : Fin 64) : (V4 m ρ c main_v7 : S1x64.Idx → EReal) (ix2 (0 : Fin 1) k)
    = (m ((c : Thread nD τ).loc main_arg9) : S64.Idx → EReal) (ix1 k) := by
  rw [show V4 m ρ c main_v7 = _ from cast_v7 (W3 m ρ c), shapeCast_a_1a_apply]
  exact congrFun (in2_of_untouched m ρ c main_arg9 (by decide) (by decide) (by decide) (by decide) (by decide) (by decide)
    (by decide) (by decide) (by decide)) (ix1 k)
theorem in2_bl (k : Fin 64) : (V4 m ρ c main_v8 : S1x64.Idx → EReal) (ix2 (0 : Fin 1) k)
    = (m ((c : Thread nD τ).loc main_arg11) : S64.Idx → EReal) (ix1 k) := by
  rw [show V4 m ρ c main_v8 = _ from cast_v8 (W3 m ρ c), shapeCast_a_1a_apply]
  exact congrFun (in2_of_untouched m ρ c main_arg11 (by decide) (by decide) (by decide) (by decide) (by decide) (by decide)
    (by decide) (by decide) (by decide)) (ix1 k)

end Walk

end Cert.KernelIdeal.KRunWalk

end
-- ==== Proof.Spec.lean ====
/-
  The mathematics both programs compute, stated once, index by index, on the extended reals.

  A two-layer graph convolution. With x (8192×128), two adjacency matrices A₀, A₁ (8192×8192 each), weights
  W₀ (128×128), W₁ (128×64), Wl (64×64) and the vectors b₀ g₀ β₀ (128), b₁ g₁ β₁ bl (64):

    S₀ = x·W₀;   row r of S₁ = LN(A₀[r,:]·S₀ + b₀; g₀, β₀)·W₁;
    row r of the result = logsoftmax( leaky( LN(A₁[r,:]·S₁ + b₁; g₁, β₁) )·Wl + bl ).

  Every row of S₁ and of the result depends on ONE adjacency row, so each is a function of that row (`rowB`, `rowC`):
  a block of rows of the result is the same function applied to the block's rows.

  LN is the layer normalisation of a row h of length d: with μ = (Σ h)/d and v = (Σ (h−μ)²)/d,
  LN(h)ₖ = (hₖ − μ)/√(v + ε)·gₖ + βₖ (`norm`); the spelling with the reciprocal square root, (hₖ − μ)·rsqrt(v + ε)·gₖ + βₖ
  (`normR`), is the same extended real, because v + ε is positive: a sum of squares is never negative on the extended
  reals (⊥·⊥ = ⊤), d is a positive real, and ε is a positive real; at a positive real a, rsqrt a = (√a)⁻¹ and division by
  the nonzero real √a is multiplication by its inverse, and at a = ⊤ both sides are c·0 (`mul_rsqrt_eq_div_sqrt`).
  No finiteness of the inputs is used.
-/
import Idealize.ShloMosaic.PureOps.Ideal.Laws
import Idealize.ShloMosaic.Lib.ValueIdx

noncomputable section

namespace Cert.Spec

open Idealize.ShloMosaic Idealize.ShloMosaic.ValueIdx
open scoped BigOperators

abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-! ## The literals the two programs share (never evaluated where both sides carry the same word) -/

/-- ε of the layer normalisation: the binary32 nearest 1e-5. -/
abbrev eps : EReal := Ideal.ofBits .f32 0x3727C5AC#32
/-- The slope of the leaky rectifier: the binary32 nearest 0.01. -/
abbrev slope : EReal := Ideal.ofBits .f32 0x3C23D70A#32
/-- +0.0 -/
abbrev zero : EReal := Ideal.ofBits .f32 0x00000000#32
/-- −∞ -/
abbrev negInf : EReal := Ideal.ofBits .f32 0xFF800000#32
/-- 128.0 -/
abbrev c128 : EReal := Ideal.ofBits .f32 0x43000000#32
/-- 64.0 -/
abbrev c64 : EReal := Ideal.ofBits .f32 0x42800000#32

/-! ## Rows -/

/-- A two-index function as an array. -/
def asArr2 {a b : ℕ} (f : Fin a → Fin b → EReal) : Arr2 a b := fun i => f (i 0) (i 1)

theorem asArr2_ix2 {a b : ℕ} (f : Fin a → Fin b → EReal) (p : Fin a) (q : Fin b) : asArr2 f (ix2 p q) = f p q := rfl

/-- The matrix product: entry (i, j) is Σ_q x(i,q)·w(q,j). -/
def prod {n k d : ℕ} (x : Arr2 n k) (w : Arr2 k d) : Fin n → Fin d → EReal :=
  fun i j => ∑ q : Fin k, x (ix2 i q) * w (ix2 q j)

/-- A row `a` through a matrix `s`, plus a bias: k ↦ Σ_q a_q·s(q,k) + b_k. -/
def mix {n d : ℕ} (a : Fin n → EReal) (s : Fin n → Fin d → EReal) (b : Fin d → EReal) : Fin d → EReal :=
  fun k => (∑ q : Fin n, a q * s q k) + b k

/-- The mean of a row, as a quotient by the literal `dn`. -/
def mean {d : ℕ} (dn : EReal) (h : Fin d → EReal) : EReal := Ideal.div (∑ q : Fin d, h q) dn

/-- The (biased) variance of a row. -/
def var {d : ℕ} (dn : EReal) (h : Fin d → EReal) : EReal :=
  Ideal.div (∑ q : Fin d, (h q - mean dn h) * (h q - mean dn h)) dn

/-- Layer normalisation of a row, spelt with a quotient by the square root. -/
def norm {d : ℕ} (dn : EReal) (h g be : Fin d → EReal) : Fin d → EReal :=
  fun k => Ideal.div (h k - mean dn h) (Ideal.sqrt (var dn h + eps)) * g k + be k

/-- Layer normalisation of a row, spelt with a product by the reciprocal square root. -/
def normR {d : ℕ} (dn : EReal) (h g be : Fin d → EReal) : Fin d → EReal :=
  fun k => (h k - mean dn h) * Ideal.rsqrt (var dn h + eps) * g k + be k

/-- The leaky rectifier: y where 0 ≤ y, slope·y elsewhere. -/
def leaky (y : EReal) : EReal := Scalar.select (Ideal.cmp .oge y zero) y (slope * y)

/-- The maximum of a row, folded from −∞. -/
def rowMax {d : ℕ} (o : Fin d → EReal) : EReal := (Finset.univ : Finset (Fin d)).fold max negInf o

/-- The log-softmax of a row: (o_j − M) − log Σ_q exp(o_q − M), M the row's maximum. -/
def lsm {d : ℕ} (o : Fin d → EReal) : Fin d → EReal :=
  fun j => (o j - rowMax o) - Ideal.log (∑ q : Fin d, Ideal.exp (o q - rowMax o))

/-- A row of the first layer's output S₁, from the adjacency row `a`. -/
def rowB (a : Fin 8192 → EReal) (s : Fin 8192 → Fin 128 → EReal) (b g be : Fin 128 → EReal)
    (w : Fin 128 → Fin 64 → EReal) : Fin 64 → EReal :=
  fun j => ∑ k : Fin 128, norm c128 (mix a s b) g be k * w k j

/-- A row of the result, from the adjacency row `a`. -/
def rowC (a : Fin 8192 → EReal) (s : Fin 8192 → Fin 64 → EReal) (b g be : Fin 64 → EReal)
    (w : Fin 64 → Fin 64 → EReal) (bl : Fin 64 → EReal) : Fin 64 → EReal :=
  lsm (mix (fun k => leaky (norm c64 (mix a s b) g be k)) w bl)

/-! ## The whole arrays -/

/-- S₁, row by row. -/
def S1 (x : Arr2 8192 128) (adj : Arr3 2 8192 8192) (W0 : Arr2 128 128) (b0 g0 be0 : Arr1 128) (W1 : Arr2 128 64) :
    Fin 8192 → Fin 64 → EReal :=
  fun r => rowB (fun n => adj (ix3 (0 : Fin 2) r n)) (prod x W0) (fun k => b0 (ix1 k)) (fun k => g0 (ix1 k))
    (fun k => be0 (ix1 k)) (fun k j => W1 (ix2 k j))

/-- The result, row by row. -/
def G (x : Arr2 8192 128) (adj : Arr3 2 8192 8192) (W0 : Arr2 128 128) (b0 g0 be0 : Arr1 128) (W1 : Arr2 128 64)
    (b1 g1 be1 : Arr1 64) (Wl : Arr2 64 64) (bl : Arr1 64) : Arr2 8192 64 :=
  asArr2 fun r => rowC (fun n => adj (ix3 (1 : Fin 2) r n)) (S1 x adj W0 b0 g0 be0 W1) (fun k => b1 (ix1 k))
    (fun k => g1 (ix1 k)) (fun k => be1 (ix1 k)) (fun k j => Wl (ix2 k j)) (fun k => bl (ix1 k))

end Cert.Spec

end
-- ==== Proof.SpecLaws.lean ====
/-
  Two laws of the extended reals that join the two spellings of the layer normalisation, and the literals they need.
-/
import proofs.«127625_g41712722379509_cont_8to1_b_1307_6_alg».proof.Proof.Spec

noncomputable section

namespace Cert.Spec

open Idealize.ShloMosaic
open scoped BigOperators

/-- 128.0 denotes the real 128. -/
theorem c128_eq : c128 = ((128 : ℝ) : EReal) := by
  simp [Ideal.ofBits, Ideal.ieee, -EReal.coe_mul]; norm_num

/-- 64.0 denotes the real 64. -/
theorem c64_eq : c64 = ((64 : ℝ) : EReal) := by
  simp [Ideal.ofBits, Ideal.ieee, -EReal.coe_mul]; norm_num

/-- ε is a positive real. -/
theorem eps_pos : 0 < eps := by
  simp [Ideal.ofBits, Ideal.ieee, -EReal.coe_mul]

/-- A square is never negative on the extended reals: ⊥·⊥ = ⊤·⊤ = ⊤. -/
theorem mul_self_nonneg' (x : EReal) : 0 ≤ x * x := by
  induction x using EReal.rec with
  | bot => simp
  | coe r => rw [← EReal.coe_mul]; exact_mod_cast mul_self_nonneg r
  | top => simp

/-- At a positive argument, the product with the reciprocal square root is the quotient by the square root: at a real
    a > 0 both are c·(√a)⁻¹, at ⊤ both are c·0. -/
theorem mul_rsqrt_eq_div_sqrt (c a : EReal) (ha : 0 < a) : c * Ideal.rsqrt a = Ideal.div c (Ideal.sqrt a) := by
  induction a using EReal.rec with
  | bot => exact absurd ha (not_lt_bot)
  | coe r =>
    have hr : 0 < r := by exact_mod_cast ha
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]
  | top =>
    rw [Ideal.rsqrt_top, Ideal.sqrt_top, Ideal.div, if_neg (by simp), EReal.inv_top]

/-- The variance plus ε is positive, whatever the row holds. -/
theorem var_add_eps_pos {d : ℕ} {dn : EReal} {n : ℝ} (hdn : dn = (n : EReal)) (hn : 0 < n) (h : Fin d → EReal) :
    0 < var dn h + eps := by
  have hv : 0 ≤ var dn h := by
    unfold var
    rw [hdn, Ideal.div_coe hn.ne']
    exact mul_nonneg (Finset.sum_nonneg fun q _ => mul_self_nonneg' _) (by exact_mod_cast (one_div_pos.mpr hn).le)
  exact lt_of_lt_of_le eps_pos (le_add_of_nonneg_left hv)

/-- The two spellings of the layer normalisation are one function. -/
theorem normR_eq_norm {d : ℕ} {dn : EReal} {n : ℝ} (hdn : dn = (n : EReal)) (hn : 0 < n) (h g be : Fin d → EReal) :
    normR dn h g be = norm dn h g be := by
  funext k
  unfold normR norm
  rw [mul_rsqrt_eq_div_sqrt _ _ (var_add_eps_pos hdn hn h)]

end Cert.Spec

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.LibRows.lean ====
/-
  Row-wise reductions and the keepdims layout steps of a kernel body, read at an entry on the extended reals: a lane
  sum and a lane maximum of an [R, D] array at row p are the sum and the maximum (folded from the accumulator) over the
  row's D entries; a vector of length a cast to a column [a, 1] keeps its entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.Rows

open Idealize.ShloMosaic Idealize.ShloMosaic.ValueIdx
open scoped BigOperators

/-- An `[a]` array cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The lane sum of row `p`: the sum of the row's entries. -/
theorem laneSum_apply {R D : ℕ} (v : FVec Ideal ⟨2, ![R, D]⟩ .f32) (hred : (⟨2, ![R, D]⟩ : Shape).Reduces [1] ⟨1, ![R]⟩)
    (p : Fin R) :
    multiReduction .add [1] ⟨1, ![R]⟩ v 0x00000000#32 hred (.inl rfl) rfl (ix1 p) = ∑ q : Fin D, v (ix2 p q) :=
  (Ideal.multiReduction_add_single v _ hred _ _ (ix1 p)).trans
    (Finset.sum_congr rfl fun q _ => congrArg v (funext fun a => Fin.ext (by
      match a with
      | ⟨0, _⟩ => rfl
      | ⟨1, _⟩ => rfl)))

/-- The lane maximum of row `p`: the maximum of the row's entries, folded from −∞. -/
theorem laneMax_apply {R D : ℕ} (v : FVec Ideal ⟨2, ![R, D]⟩ .f32) (hred : (⟨2, ![R, D]⟩ : Shape).Reduces [1] ⟨1, ![R]⟩)
    (p : Fin R) :
    multiReduction .maximumf [1] ⟨1, ![R]⟩ v 0xFF800000#32 hred (.inl rfl) rfl (ix1 p)
      = (Finset.univ : Finset (Fin D)).fold max (Ideal.ofBits .f32 0xFF800000#32) (fun q => v (ix2 p q)) :=
  (Ideal.multiReduction_maximumf_single v _ hred _ _ (ix1 p)).trans
    (congrArg (Finset.fold max _ · Finset.univ) (funext fun q => congrArg v (funext fun a => Fin.ext (by
      match a with
      | ⟨0, _⟩ => rfl
      | ⟨1, _⟩ => rfl))))

end Cert.Lib.Rows

end
-- ==== Proof.LibColumnBroadcast.lean ====
/-
  One column broadcast over many: an [a, 1] array broadcast to [a, b] reads, at (p, c), the operand's row p.
  (The row form, [1, b] to [a, b], is the library's; this is the same statement for the other axis.)
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast
-- ==== Proof.KBody.lean ====
/-
  The two row-wise pieces the kernel bodies share, read at an entry on the extended reals.

  `lnK`: the layer normalisation as the kernels spell it — the row mean by a lane sum and a quotient, the centred row, the
  variance by a second lane sum, the reciprocal square root of variance plus ε broadcast back along the row, then the
  gain and the shift, each a [1, D] row broadcast down the block. At (p, k) it is `Spec.normR` of row p.

  `lsmK`: the log-softmax as the kernels spell it — the row maximum by a lane maximum from −∞, the shifted row, the lane
  sum of its exponentials, its logarithm broadcast back and subtracted. At (p, j) it is `Spec.lsm` of row p.
-/
import proofs.«127625_g41712722379509_cont_8to1_b_1307_6_alg».proof.Proof.Spec
import proofs.«127625_g41712722379509_cont_8to1_b_1307_6_alg».proof.Proof.LibRows
import proofs.«127625_g41712722379509_cont_8to1_b_1307_6_alg».proof.Proof.LibColumnBroadcast

noncomputable section

namespace Cert.KernelIdeal.KBody

open Idealize.ShloMosaic Idealize.ShloMosaic.ValueIdx Cert.Lib.Rows Cert.Lib.ColumnBroadcast
open scoped BigOperators

variable {R D : ℕ}

/-- The row means as a column: lane sums, kept as a column, over the literal `dnb`. -/
def meanK (h : FVec Ideal ⟨2, ![R, D]⟩ .f32) (dnb : BitVec 32) (hred : (⟨2, ![R, D]⟩ : Shape).Reduces [1] ⟨1, ![R]⟩)
    (hsc : (⟨1, ![R]⟩ : Shape).ShapeCasts ⟨2, ![R, 1]⟩) : FVec Ideal ⟨2, ![R, 1]⟩ .f32 :=
  divf (shapeCast ⟨2, ![R, 1]⟩ (multiReduction .add [1] ⟨1, ![R]⟩ h 0x00000000#32 hred (.inl rfl) rfl) hsc)
    (broadcast ⟨2, ![R, 1]⟩ (FloatOps.ofBits .f32 dnb))

/-- The block minus its row means. -/
def centerK (h : FVec Ideal ⟨2, ![R, D]⟩ .f32) (dnb : BitVec 32) (hred : (⟨2, ![R, D]⟩ : Shape).Reduces [1] ⟨1, ![R]⟩)
    (hsc : (⟨1, ![R]⟩ : Shape).ShapeCasts ⟨2, ![R, 1]⟩) (hbc : (⟨2, ![R, 1]⟩ : Shape).Broadcasts ⟨2, ![R, D]⟩) :
    FVec Ideal ⟨2, ![R, D]⟩ .f32 :=
  subf h (broadcastTo ⟨2, ![R, D]⟩ (meanK h dnb hred hsc) hbc)

/-- The layer normalisation of every row of a block, in the kernels' spelling. -/
def lnK (h : FVec Ideal ⟨2, ![R, D]⟩ .f32) (g be : FVec Ideal ⟨2, ![1, D]⟩ .f32) (dnb : BitVec 32)
    (hred : (⟨2, ![R, D]⟩ : Shape).Reduces [1] ⟨1, ![R]⟩) (hsc : (⟨1, ![R]⟩ : Shape).ShapeCasts ⟨2, ![R, 1]⟩)
    (hbc : (⟨2, ![R, 1]⟩ : Shape).Broadcasts ⟨2, ![R, D]⟩) (hbr : (⟨2, ![1, D]⟩ : Shape).Broadcasts ⟨2, ![R, D]⟩) :
    FVec Ideal ⟨2, ![R, D]⟩ .f32 :=
  addf (mulf (mulf (centerK h dnb hred hsc hbc)
      (broadcastTo ⟨2, ![R, D]⟩ (rsqrt (addf (meanK (mulf (centerK h dnb hred hsc hbc) (centerK h dnb hred hsc hbc)) dnb hred hsc)
        (broadcast ⟨2, ![R, 1]⟩ (FloatOps.ofBits .f32 0x3727C5AC#32)))) hbc))
    (broadcastTo ⟨2, ![R, D]⟩ g hbr)) (broadcastTo ⟨2, ![R, D]⟩ be hbr)

theorem meanK_apply (h : FVec Ideal ⟨2, ![R, D]⟩ .f32) (dnb : BitVec 32) (hred) (hsc) (p : Fin R) :
    meanK h dnb hred hsc (ix2 p (0 : Fin 1)) = Cert.Spec.mean (Ideal.ofBits .f32 dnb) (fun q => h (ix2 p q)) := by
  unfold meanK
  show Ideal.div (shapeCast ⟨2, ![R, 1]⟩ _ hsc (ix2 p (0 : Fin 1))) _ = _
  rw [shapeCast_a_a1_apply, laneSum_apply]
  rfl

theorem centerK_apply (h : FVec Ideal ⟨2, ![R, D]⟩ .f32) (dnb : BitVec 32) (hred) (hsc) (hbc) (p : Fin R) (q : Fin D) :
    centerK h dnb hred hsc hbc (ix2 p q) = h (ix2 p q) - Cert.Spec.mean (Ideal.ofBits .f32 dnb) (fun q => h (ix2 p q)) := by
  unfold centerK
  show h (ix2 p q) - broadcastTo ⟨2, ![R, D]⟩ _ hbc (ix2 p q) = _
  rw [broadcastTo_a1_ab_apply, meanK_apply]

/-- The kernels' layer normalisation at (p, k) is the normalisation of row p, in the spelling with the reciprocal root. -/
theorem lnK_apply (h : FVec Ideal ⟨2, ![R, D]⟩ .f32) (g be : FVec Ideal ⟨2, ![1, D]⟩ .f32) (dnb : BitVec 32) (hred) (hsc) (hbc) (hbr)
    (p : Fin R) (k : Fin D) :
    lnK h g be dnb hred hsc hbc hbr (ix2 p k)
      = Cert.Spec.normR (Ideal.ofBits .f32 dnb) (fun q => h (ix2 p q)) (fun q => g (ix2 (0 : Fin 1) q))
          (fun q => be (ix2 (0 : Fin 1) q)) k := by
  unfold lnK
  show centerK h dnb hred hsc hbc (ix2 p k) * broadcastTo ⟨2, ![R, D]⟩ _ hbc (ix2 p k) * broadcastTo ⟨2, ![R, D]⟩ g hbr (ix2 p k)
      + broadcastTo ⟨2, ![R, D]⟩ be hbr (ix2 p k) = _
  rw [broadcastTo_a1_ab_apply, broadcastTo_1b_ab_apply, broadcastTo_1b_ab_apply, centerK_apply]
  show _ * Ideal.rsqrt (meanK _ dnb hred hsc (ix2 p (0 : Fin 1)) + _) * _ + _ = _
  rw [meanK_apply]
  unfold Cert.Spec.normR Cert.Spec.var
  have e : (fun q => mulf (centerK h dnb hred hsc hbc) (centerK h dnb hred hsc hbc) (ix2 p q))
      = fun q => (h (ix2 p q) - Cert.Spec.mean (Ideal.ofBits .f32 dnb) (fun q => h (ix2 p q)))
          * (h (ix2 p q) - Cert.Spec.mean (Ideal.ofBits .f32 dnb) (fun q => h (ix2 p q))) :=
    funext fun q => by rw [mulf_apply, centerK_apply]
  rw [e]
  rfl

/-- The block minus its row maxima. -/
def shiftK (o : FVec Ideal ⟨2, ![R, D]⟩ .f32) (hred : (⟨2, ![R, D]⟩ : Shape).Reduces [1] ⟨1, ![R]⟩)
    (hsc : (⟨1, ![R]⟩ : Shape).ShapeCasts ⟨2, ![R, 1]⟩) (hbc : (⟨2, ![R, 1]⟩ : Shape).Broadcasts ⟨2, ![R, D]⟩) :
    FVec Ideal ⟨2, ![R, D]⟩ .f32 :=
  subf o (broadcastTo ⟨2, ![R, D]⟩
    (shapeCast ⟨2, ![R, 1]⟩ (multiReduction .maximumf [1] ⟨1, ![R]⟩ o 0xFF800000#32 hred (.inl rfl) rfl) hsc) hbc)

/-- The log-softmax of every row of a block, in the kernels' spelling. -/
def lsmK (o : FVec Ideal ⟨2, ![R, D]⟩ .f32) (hred : (⟨2, ![R, D]⟩ : Shape).Reduces [1] ⟨1, ![R]⟩)
    (hsc : (⟨1, ![R]⟩ : Shape).ShapeCasts ⟨2, ![R, 1]⟩) (hbc : (⟨2, ![R, 1]⟩ : Shape).Broadcasts ⟨2, ![R, D]⟩) :
    FVec Ideal ⟨2, ![R, D]⟩ .f32 :=
  subf (shiftK o hred hsc hbc) (broadcastTo ⟨2, ![R, D]⟩
    (log (shapeCast ⟨2, ![R, 1]⟩ (multiReduction .add [1] ⟨1, ![R]⟩ (exp (shiftK o hred hsc hbc)) 0x00000000#32 hred (.inl rfl) rfl) hsc))
    hbc)

theorem shiftK_apply (o : FVec Ideal ⟨2, ![R, D]⟩ .f32) (hred) (hsc) (hbc) (p : Fin R) (q : Fin D) :
    shiftK o hred hsc hbc (ix2 p q) = o (ix2 p q) - Cert.Spec.rowMax (fun q => o (ix2 p q)) := by
  unfold shiftK
  show o (ix2 p q) - broadcastTo ⟨2, ![R, D]⟩ _ hbc (ix2 p q) = _
  rw [broadcastTo_a1_ab_apply, shapeCast_a_a1_apply, laneMax_apply]
  rfl

/-- The kernels' log-softmax at (p, j) is the log-softmax of row p. -/
theorem lsmK_apply (o : FVec Ideal ⟨2, ![R, D]⟩ .f32) (hred) (hsc) (hbc) (p : Fin R) (j : Fin D) :
    lsmK o hred hsc hbc (ix2 p j) = Cert.Spec.lsm (fun q => o (ix2 p q)) j := by
  unfold lsmK
  show shiftK o hred hsc hbc (ix2 p j) - broadcastTo ⟨2, ![R, D]⟩ _ hbc (ix2 p j) = _
  rw [broadcastTo_a1_ab_apply, shiftK_apply]
  show _ - Ideal.log (shapeCast ⟨2, ![R, 1]⟩ _ hsc (ix2 p (0 : Fin 1))) = _
  rw [shapeCast_a_a1_apply, laneSum_apply]
  have e : (fun q => exp (shiftK o hred hsc hbc) (ix2 p q))
      = fun q => Ideal.exp (o (ix2 p q) - Cert.Spec.rowMax (fun q => o (ix2 p q))) :=
    funext fun q => by
      show Ideal.exp (shiftK o hred hsc hbc (ix2 p q)) = _
      rw [shiftK_apply]
  rw [e]
  rfl

end Cert.KernelIdeal.KBody

end
-- ==== Proof.KPay.lean ====
/-
  What each kernel body stores, read at an entry: the three payloads as the row functions of the specification.

  The first body is one matrix product. The second, at row p of its block: the adjacency block's row p through S₀ plus
  b₀ (a matrix product into a zero accumulator and a row broadcast), the layer normalisation of that row, and its
  product with W₁ — `Spec.rowB` of the block's row. The third, at row p: the same with S₁, b₁, then the leaky rectifier
  entry by entry, the product with Wl plus bl, and the log-softmax of the row — `Spec.rowC`. A change of float format
  is the identity on the extended reals, and the kernels' product with the reciprocal square root is the reference's
  quotient by the square root (`Spec.normR_eq_norm`).
-/
import proofs.«127625_g41712722379509_cont_8to1_b_1307_6_alg».proof.Proof.Gen.KernelIdeal.Skeleton
import proofs.«127625_g41712722379509_cont_8to1_b_1307_6_alg».proof.Proof.SpecLaws
import proofs.«127625_g41712722379509_cont_8to1_b_1307_6_alg».proof.Proof.LibPlainProduct
import proofs.«127625_g41712722379509_cont_8to1_b_1307_6_alg».proof.Proof.KBody
import Idealize.ShloMosaic.Lib.ValueLayout

noncomputable section

namespace Cert.KernelIdeal.KPay

open Cert.KernelIdeal Cert.KernelIdeal.Gen Idealize.ShloMosaic Idealize.ShloMosaic.ValueIdx Cert.KernelIdeal.KBody
open Cert.Lib.PlainProduct
open scoped BigOperators

theorem plain0 : IsPlain dot_S8192x128_S128x128_S8192x128_1_0_0_1_n_n := ⟨rfl, rfl, rfl, rfl, rfl, rfl⟩
theorem plain1a : IsPlain dot_S512x8192_S8192x128_S512x128_1_0_0_1_n_n := ⟨rfl, rfl, rfl, rfl, rfl, rfl⟩
theorem plain1b : IsPlain dot_S512x128_S128x64_S512x64_1_0_0_1_n_n := ⟨rfl, rfl, rfl, rfl, rfl, rfl⟩
theorem plain2a : IsPlain dot_S512x8192_S8192x64_S512x64_1_0_0_1_n_n := ⟨rfl, rfl, rfl, rfl, rfl, rfl⟩
theorem plain2b : IsPlain dot_S512x64_S64x64_S512x64_1_0_0_1_n_n := ⟨rfl, rfl, rfl, rfl, rfl, rfl⟩

/-- The first body: one matrix product. -/
theorem pay0 (x0 : Vec Ideal S8192x128 .f32) (x1 : Vec Ideal S128x128 .f32) (n : Fin 8192) (k : Fin 128) :
    k0_pay1 (F := Ideal) x0 x1 (ix2 n k) = Cert.Spec.prod x0 x1 n k := by
  unfold k0_pay1
  exact matmul_zero_apply plain0 rfl rfl none x0 x1 n k

/-- An adjacency block's row p through a matrix, plus a bias row: the graph convolution of one row. -/
theorem conv128_apply (x0 : Vec Ideal S1x512x8192 .f32) (x1 : Vec Ideal S8192x128 .f32) (x2 : Vec Ideal S1x128 .f32)
    (p : Fin 512) (q : Fin 128) :
    (addf (matmul dot_S512x8192_S8192x128_S512x128_1_0_0_1_n_n none
        (truncf .bf16 (shapeCast S512x8192 x0 shapeCasts_S1x512x8192_S512x8192) bitsLt_bf16_f32)
        (truncf .bf16 (shapeCast S8192x128 x1 shapeCasts_S8192x128_S8192x128) bitsLt_bf16_f32)
        (constant (F := Ideal) S512x128 .f32 0x00000000#32))
      (broadcastTo S512x128 (shapeCast S1x128 x2 shapeCasts_S1x128_S1x128) broadcasts_S1x128_S512x128)
        : FVec Ideal S512x128 .f32) (ix2 p q)
    = Cert.Spec.mix (fun n => x0 (ix3 (0 : Fin 1) p n)) (fun n k => x1 (ix2 n k)) (fun k => x2 (ix2 (0 : Fin 1) k)) q := by
  show matmul _ none _ _ _ (ix2 p q) + broadcastTo S512x128 _ broadcasts_S1x128_S512x128 (ix2 p q) = _
  rw [broadcastTo_1b_ab_apply, shapeCast_self, shapeCast_self]
  refine congrArg (· + x2 (ix2 (0 : Fin 1) q)) ?_
  refine (matmul_zero_apply plain1a rfl rfl none _ _ p q).trans (Finset.sum_congr rfl fun n _ => ?_)
  show shapeCast S512x8192 x0 shapeCasts_S1x512x8192_S512x8192 (ix2 p n) * x1 (ix2 n q) = _
  rw [shapeCast_1ab_ab_apply]

/-- The second body: row p of the block, from row p of the adjacency block. -/
theorem pay1 (x0 : Vec Ideal S1x512x8192 .f32) (x1 : Vec Ideal S8192x128 .f32) (x2 x3 x4 : Vec Ideal S1x128 .f32)
    (x5 : Vec Ideal S128x64 .f32) (p : Fin 512) (j : Fin 64) :
    k1_pay1 (F := Ideal) x0 x1 x2 x3 x4 x5 (ix2 p j)
      = Cert.Spec.rowB (fun n => x0 (ix3 (0 : Fin 1) p n)) (fun n k => x1 (ix2 n k)) (fun k => x2 (ix2 (0 : Fin 1) k))
          (fun k => x3 (ix2 (0 : Fin 1) k)) (fun k => x4 (ix2 (0 : Fin 1) k)) (fun k j => x5 (ix2 k j)) j := by
  unfold k1_pay1
  dsimp only
  refine (matmul_zero_apply plain1b rfl rfl none _ x5 p j).trans ?_
  unfold Cert.Spec.rowB
  refine Finset.sum_congr rfl fun k _ => congrArg (· * x5 (ix2 k j)) ?_
  refine (lnK_apply _ (shapeCast S1x128 x3 shapeCasts_S1x128_S1x128) (shapeCast S1x128 x4 shapeCasts_S1x128_S1x128)
    0x43000000#32 reduces_S512x128_S512 shapeCasts_S512_S512x1 broadcasts_S512x1_S512x128 broadcasts_S1x128_S512x128 p k).trans ?_
  refine Eq.trans ?_ (congrFun (Cert.Spec.normR_eq_norm Cert.Spec.c128_eq (by norm_num) _ _ _) k)
  exact congrFun (congr (congr (congrArg (Cert.Spec.normR Cert.Spec.c128) (funext fun q => conv128_apply x0 x1 x2 p q))
    (funext fun q => by rw [shapeCast_self])) (funext fun q => by rw [shapeCast_self])) k

/-- An adjacency block's row p through S₁, plus the bias row b₁. -/
theorem conv64_apply (x0 : Vec Ideal S1x512x8192 .f32) (x1 : Vec Ideal S8192x64 .f32) (x2 : Vec Ideal S1x64 .f32)
    (p : Fin 512) (q : Fin 64) :
    (addf (matmul dot_S512x8192_S8192x64_S512x64_1_0_0_1_n_n none
        (truncf .bf16 (shapeCast S512x8192 x0 shapeCasts_S1x512x8192_S512x8192) bitsLt_bf16_f32)
        (truncf .bf16 (shapeCast S8192x64 x1 shapeCasts_S8192x64_S8192x64) bitsLt_bf16_f32)
        (constant (F := Ideal) S512x64 .f32 0x00000000#32))
      (broadcastTo S512x64 (shapeCast S1x64 x2 shapeCasts_S1x64_S1x64) broadcasts_S1x64_S512x64)
        : FVec Ideal S512x64 .f32) (ix2 p q)
    = Cert.Spec.mix (fun n => x0 (ix3 (0 : Fin 1) p n)) (fun n k => x1 (ix2 n k)) (fun k => x2 (ix2 (0 : Fin 1) k)) q := by
  show matmul _ none _ _ _ (ix2 p q) + broadcastTo S512x64 _ broadcasts_S1x64_S512x64 (ix2 p q) = _
  rw [broadcastTo_1b_ab_apply, shapeCast_self, shapeCast_self]
  refine congrArg (· + x2 (ix2 (0 : Fin 1) q)) ?_
  refine (matmul_zero_apply plain2a rfl rfl none _ _ p q).trans (Finset.sum_congr rfl fun n _ => ?_)
  show shapeCast S512x8192 x0 shapeCasts_S1x512x8192_S512x8192 (ix2 p n) * x1 (ix2 n q) = _
  rw [shapeCast_1ab_ab_apply]

/-- The third body up to the rectifier: at (p, k), the leaky rectifier of the normalised row's entry k. -/
theorem pay2a (x0 : Vec Ideal S1x512x8192 .f32) (x1 : Vec Ideal S8192x64 .f32) (x2 x3 x4 : Vec Ideal S1x64 .f32)
    (p : Fin 512) (k : Fin 64) :
    k2_pay2 (F := Ideal) x0 x1 x2 x3 x4 (ix2 p k)
      = Cert.Spec.leaky (Cert.Spec.norm Cert.Spec.c64
          (Cert.Spec.mix (fun n => x0 (ix3 (0 : Fin 1) p n)) (fun n k => x1 (ix2 n k)) (fun k => x2 (ix2 (0 : Fin 1) k)))
          (fun k => x3 (ix2 (0 : Fin 1) k)) (fun k => x4 (ix2 (0 : Fin 1) k)) k) := by
  unfold k2_pay2
  dsimp only
  show Cert.Spec.leaky (_ : EReal) = _
  refine congrArg Cert.Spec.leaky ?_
  refine (lnK_apply _ (shapeCast S1x64 x3 shapeCasts_S1x64_S1x64) (shapeCast S1x64 x4 shapeCasts_S1x64_S1x64)
    0x42800000#32 reduces_S512x64_S512 shapeCasts_S512_S512x1 broadcasts_S512x1_S512x64 broadcasts_S1x64_S512x64 p k).trans ?_
  refine Eq.trans ?_ (congrFun (Cert.Spec.normR_eq_norm Cert.Spec.c64_eq (by norm_num) _ _ _) k)
  exact congrFun (congr (congr (congrArg (Cert.Spec.normR Cert.Spec.c64) (funext fun q => conv64_apply x0 x1 x2 p q))
    (funext fun q => by rw [shapeCast_self])) (funext fun q => by rw [shapeCast_self])) k

/-- The third body from the rectified block on: the last linear map and the log-softmax of row p. -/
theorem pay2b (z : FVec Ideal S512x64 .f32) (x5 : Vec Ideal S64x64 .f32) (x6 : Vec Ideal S1x64 .f32) (p : Fin 512) (j : Fin 64) :
    k2_pay1 (F := Ideal) z x5 x6 (ix2 p j)
      = Cert.Spec.lsm (Cert.Spec.mix (fun k => z (ix2 p k)) (fun k j => x5 (ix2 k j)) (fun k => x6 (ix2 (0 : Fin 1) k))) j := by
  unfold k2_pay1
  dsimp only
  refine (lsmK_apply _ reduces_S512x64_S512 shapeCasts_S512_S512x1 broadcasts_S512x1_S512x64 p j).trans ?_
  refine congrFun (congrArg Cert.Spec.lsm (funext fun q => ?_)) j
  show matmul _ none _ _ _ (ix2 p q) + broadcastTo S512x64 _ broadcasts_S1x64_S512x64 (ix2 p q) = _
  rw [broadcastTo_1b_ab_apply, shapeCast_self]
  exact congrArg (· + x6 (ix2 (0 : Fin 1) q)) (matmul_zero_apply plain2b rfl rfl none z x5 p q)

/-- The third body: row p of the block, from row p of the adjacency block. -/
theorem pay2 (x0 : Vec Ideal S1x512x8192 .f32) (x1 : Vec Ideal S8192x64 .f32) (x2 x3 x4 : Vec Ideal S1x64 .f32)
    (x5 : Vec Ideal S64x64 .f32) (x6 : Vec Ideal S1x64 .f32) (p : Fin 512) (j : Fin 64) :
    k2_pay1 (F := Ideal) (k2_pay2 (F := Ideal) x0 x1 x2 x3 x4) x5 x6 (ix2 p j)
      = Cert.Spec.rowC (fun n => x0 (ix3 (0 : Fin 1) p n)) (fun n k => x1 (ix2 n k)) (fun k => x2 (ix2 (0 : Fin 1) k))
          (fun k => x3 (ix2 (0 : Fin 1) k)) (fun k => x4 (ix2 (0 : Fin 1) k)) (fun k j => x5 (ix2 k j))
          (fun k => x6 (ix2 (0 : Fin 1) k)) j := by
  rw [pay2b]
  unfold Cert.Spec.rowC
  refine congrFun (congrArg Cert.Spec.lsm ?_) j
  refine congrArg (fun f => Cert.Spec.mix f (fun k j => x5 (ix2 k j)) (fun k => x6 (ix2 (0 : Fin 1) k))) ?_
  exact funext fun k => pay2a x0 x1 x2 x3 x4 p k

end Cert.KernelIdeal.KPay

end
-- ==== Proof.KBlocks0.lean ====
/-
  The first kernel, from its one block to its output array: one grid point, whole-array blocks, a matrix product.
-/
import proofs.«127625_g41712722379509_cont_8to1_b_1307_6_alg».proof.Proof.Gen.KernelIdeal.Frame
import proofs.«127625_g41712722379509_cont_8to1_b_1307_6_alg».proof.Proof.KPay
import Idealize.ShloMosaic.Lib.Pipeline.Value

noncomputable section

namespace Cert.KernelIdeal.KBlocks.First

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Two zero offsets, however spelt. -/
theorem zeros2 : (![0, 0] : Fin 2 → Nat) = fun _ => 0 := funext fun a => by fin_cases a <;> rfl

/-- The product x·W₀ as an array. -/
abbrev G (x : S8192x128.Idx → EReal) (w : S128x128.Idx → EReal) : S8192x128.Idx → EReal :=
  Cert.Spec.asArr2 (Cert.Spec.prod x w)

/-- Every window's block index is zero on both axes at the one grid point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of x at the grid point is x. -/
theorem blk_x (c : Dev nD) (t : Fin cfg0.N) (n : Fin 8192) (k : Fin 128) :
    (iblk0 V c 0 t : Vec Ideal S8192x128 .f32) (ix2 n k) = (V c main_arg0 : S8192x128.Idx → EReal) (ix2 n k) := by
  obtain ⟨e0, e1, -⟩ := idx_facts t
  unfold iblk0
  rw [View.read_apply]
  show (V c main_arg0 : S8192x128.Idx → EReal) (((cfg0.win 0).blk t).view.emb (ix2 n k)) = _
  refine congrArg _ ?_
  funext a; apply Fin.ext
  match a with
  | ⟨0, _⟩ => show win0_0.index t (0 : Fin 2) * 8192 + 1 * n.val = n.val; omega
  | ⟨1, _⟩ => show win0_0.index t (1 : Fin 2) * 128 + 1 * k.val = k.val; omega

/-- The block of W₀ at the grid point is W₀. -/
theorem blk_w (c : Dev nD) (t : Fin cfg0.N) (n : Fin 128) (k : Fin 128) :
    (iblk0 V c 1 t : Vec Ideal S128x128 .f32) (ix2 n k) = (V c main_arg2 : S128x128.Idx → EReal) (ix2 n k) := by
  obtain ⟨-, -, e0, e1, -⟩ := idx_facts t
  unfold iblk0
  rw [View.read_apply]
  show (V c main_arg2 : S128x128.Idx → EReal) (((cfg0.win 1).blk t).view.emb (ix2 n k)) = _
  refine congrArg _ ?_
  funext a; apply Fin.ext
  match a with
  | ⟨0, _⟩ => show win0_1.index t (0 : Fin 2) * 128 + 1 * n.val = n.val; omega
  | ⟨1, _⟩ => show win0_1.index t (1 : Fin 2) * 128 + 1 * k.val = k.val; omega

/-- The body's payload at an entry, over blocks that agree entrywise with arrays: the product of the arrays. -/
theorem pay_entry (x0 : Vec Ideal S8192x128 .f32) (x1 : Vec Ideal S128x128 .f32)
    (A0 : S8192x128.Idx → EReal) (A1 : S128x128.Idx → EReal)
    (h0 : ∀ (n : Fin 8192) (k : Fin 128), x0 (ix2 n k) = A0 (ix2 n k))
    (h1 : ∀ (k : Fin 128) (j : Fin 128), x1 (ix2 k j) = A1 (ix2 k j)) (p : Fin 8192) (q : Fin 128) :
    k0_pay1 (F := Ideal) x0 x1 (ix2 p q) = Cert.Spec.prod A0 A1 p q := by
  rw [KPay.pay0]
  unfold Cert.Spec.prod
  exact Finset.sum_congr rfl fun r _ => by rw [h0, h1]

theorem flushed_eq (c : Dev nD) (t : Fin cfg0.N) :
    (dat0 (F := Ideal) V c).flushed 2 t = ((cfg0.win 2).blk t).view.read (Elt Ideal) (G (V c main_arg0) (V c main_arg2)) := by
  show (cfg0.win 2).cut (grid0.coords t) ((dat0 (F := Ideal) V c).after 2 t) = _
  rw [after0_2]
  unfold out0_2
  rw [View.canon_unit_zero zeros2]
  simp only [View.ld_unit_zero (S := S8192x128) zeros2, View.ld_unit_zero (S := S128x128) zeros2]
  funext j
  obtain ⟨p, q, rfl⟩ : ∃ (p : Fin 8192) (q : Fin 128), j = ix2 p q := ⟨j 0, j 1, eq_ix2 (n0 := 8192) (n1 := 128) j⟩
  rw [View.read_apply]
  have he : ((cfg0.win 2).blk t).view.emb (ix2 p q) = (ix2 p q : S8192x128.Idx) := by
    obtain ⟨-, -, -, -, e0, e1⟩ := idx_facts t
    funext a; apply Fin.ext
    match a with
    | ⟨0, _⟩ => show win0_2.index t (0 : Fin 2) * 8192 + 1 * p.val = p.val; omega
    | ⟨1, _⟩ => show win0_2.index t (1 : Fin 2) * 128 + 1 * q.val = q.val; omega
  show k0_pay1 (F := Ideal) (iblk0 V c 0 t) (iblk0 V c 1 t) (ix2 p q)
    = G (V c main_arg0) (V c main_arg2) (((cfg0.win 2).blk t).view.emb (ix2 p q))
  rw [he]
  exact pay_entry (iblk0 V c 0 t) (iblk0 V c 1 t) (V c main_arg0) (V c main_arg2) (blk_x V c t) (blk_w V c t) p q

/-- An index of the output array is in the grid point's block iff each coordinate is in the block's range. -/
theorem mem_blk (t : Fin cfg0.N) (i : S8192x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- The one block covers the output array. -/
theorem cover (i : S8192x128.Idx) :
    ∃ t : Fin cfg0.N, (cfg0.win 2).flush t = true ∧ i ∈ ((cfg0.win 2).blk t).view.set := by
  refine ⟨t0_0, flush0_2 t0_0, ?_⟩
  rw [mem_blk]
  obtain ⟨-, -, -, -, e0, e1⟩ := idx_facts t0_0
  have hi0 : (i 0).val < 8192 := (i 0).isLt
  have hi1 : (i 1).val < 128 := (i 1).isLt
  intro a
  match a with
  | ⟨0, _⟩ => show win0_2.index t0_0 (0 : Fin 2) * 8192 ≤ (i 0).val ∧ (i 0).val < win0_2.index t0_0 (0 : Fin 2) * 8192 + 8192; omega
  | ⟨1, _⟩ => show win0_2.index t0_0 (1 : Fin 2) * 128 ≤ (i 1).val ∧ (i 1).val < win0_2.index t0_0 (1 : Fin 2) * 128 + 128; omega

/-- The first kernel's output array after its run: the product of the arrays it found. -/
theorem final (c : Dev nD) :
    (dat0 (F := Ideal) V c).arrAt 2 cfg0.N = G (V c main_arg0) (V c main_arg2) :=
  (dat0 (F := Ideal) V c).arrAt_eq_of_cover 2 (G (V c main_arg0) (V c main_arg2)) (fun t _ => flushed_eq V c t) cover

end Cert.KernelIdeal.KBlocks.First

end
-- ==== Proof.KBlocks1.lean ====
/-
  The second kernel, from its blocks to its output array: sixteen grid points, point t writes rows 512·t … 512·t + 511,
  each row the row function of the same row of the first adjacency matrix.
-/
import proofs.«127625_g41712722379509_cont_8to1_b_1307_6_alg».proof.Proof.Gen.KernelIdeal.Frame
import proofs.«127625_g41712722379509_cont_8to1_b_1307_6_alg».proof.Proof.KPay
import Idealize.ShloMosaic.Lib.Pipeline.Value

noncomputable section

namespace Cert.KernelIdeal.KBlocks.Second

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Zero offsets, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- S₁ as an array, row by row, from the arrays the kernel finds. -/
abbrev G (A : S2x8192x8192.Idx → EReal) (S0 : S8192x128.Idx → EReal) (b g be : S1x128.Idx → EReal)
    (W : S128x64.Idx → EReal) : S8192x64.Idx → EReal :=
  Cert.Spec.asArr2 fun r => Cert.Spec.rowB (fun n => A (ix3 (0 : Fin 2) r n)) (fun n k => S0 (ix2 n k))
    (fun k => b (ix2 (0 : Fin 1) k)) (fun k => g (ix2 (0 : Fin 1) k)) (fun k => be (ix2 (0 : Fin 1) k))
    (fun k j => W (ix2 k j))

/-- The block indices over the grid: the adjacency block is (0, t, 0), the output block (t, 0), every other block 0. -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the adjacency block at point t is row 512·t + p of the first adjacency matrix. -/
theorem blk_adj (c : Dev nD) (t : Fin cfg1.N) (p : Fin 512) (r : Fin 8192) (hr : r.val = 512 * t.val + p.val)
    (n : Fin 8192) :
    (iblk1 V c 0 t : Vec Ideal S1x512x8192 .f32) (ix3 (0 : Fin 1) p n)
      = (V c main_arg1 : S2x8192x8192.Idx → EReal) (ix3 (0 : Fin 2) r n) := by
  obtain ⟨e0, e1, e2, -⟩ := idx_facts t
  unfold iblk1
  rw [View.read_apply]
  show (V c main_arg1 : S2x8192x8192.Idx → EReal) (((cfg1.win 0).blk t).view.emb (ix3 (0 : Fin 1) p n)) = _
  refine congrArg _ ?_
  funext a; apply Fin.ext
  match a with
  | ⟨0, _⟩ => show win1_0.index t (0 : Fin 3) * 1 + 1 * (0 : Fin 1).val = (0 : Fin 2).val; rw [e0]; rfl
  | ⟨1, _⟩ => show win1_0.index t (1 : Fin 3) * 512 + 1 * p.val = r.val; omega
  | ⟨2, _⟩ => show win1_0.index t (2 : Fin 3) * 8192 + 1 * n.val = n.val; omega

/-- The block of S₀ at any point is S₀. -/
theorem blk_s (c : Dev nD) (t : Fin cfg1.N) (n : Fin 8192) (k : Fin 128) :
    (iblk1 V c 1 t : Vec Ideal S8192x128 .f32) (ix2 n k) = (V c main_v0 : S8192x128.Idx → EReal) (ix2 n k) := by
  obtain ⟨-, -, -, e0, e1, -⟩ := idx_facts t
  unfold iblk1
  rw [View.read_apply]
  show (V c main_v0 : S8192x128.Idx → EReal) (((cfg1.win 1).blk t).view.emb (ix2 n k)) = _
  refine congrArg _ ?_
  funext a; apply Fin.ext
  match a with
  | ⟨0, _⟩ => show win1_1.index t (0 : Fin 2) * 8192 + 1 * n.val = n.val; omega
  | ⟨1, _⟩ => show win1_1.index t (1 : Fin 2) * 128 + 1 * k.val = k.val; omega

/-- The one-row blocks (bias, scale, shift) at any point are the one-row arrays. -/
theorem blk_b (c : Dev nD) (t : Fin cfg1.N) (k : Fin 128) :
    (iblk1 V c 2 t : Vec Ideal S1x128 .f32) (ix2 (0 : Fin 1) k) = (V c main_v1 : S1x128.Idx → EReal) (ix2 (0 : Fin 1) k) := by
  obtain ⟨-, -, -, -, -, e0, e1, -⟩ := idx_facts t
  unfold iblk1
  rw [View.read_apply]
  show (V c main_v1 : S1x128.Idx → EReal) (((cfg1.win 2).blk t).view.emb (ix2 (0 : Fin 1) k)) = _
  refine congrArg _ ?_
  funext a; apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * k.val = k.val; omega

theorem blk_g (c : Dev nD) (t : Fin cfg1.N) (k : Fin 128) :
    (iblk1 V c 3 t : Vec Ideal S1x128 .f32) (ix2 (0 : Fin 1) k) = (V c main_v2 : S1x128.Idx → EReal) (ix2 (0 : Fin 1) k) := by
  obtain ⟨-, -, -, -, -, -, -, e0, e1, -⟩ := idx_facts t
  unfold iblk1
  rw [View.read_apply]
  show (V c main_v2 : S1x128.Idx → EReal) (((cfg1.win 3).blk t).view.emb (ix2 (0 : Fin 1) k)) = _
  refine congrArg _ ?_
  funext a; apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * k.val = k.val; omega

theorem blk_be (c : Dev nD) (t : Fin cfg1.N) (k : Fin 128) :
    (iblk1 V c 4 t : Vec Ideal S1x128 .f32) (ix2 (0 : Fin 1) k) = (V c main_v3 : S1x128.Idx → EReal) (ix2 (0 : Fin 1) k) := by
  obtain ⟨-, -, -, -, -, -, -, -, -, e0, e1, -⟩ := idx_facts t
  unfold iblk1
  rw [View.read_apply]
  show (V c main_v3 : S1x128.Idx → EReal) (((cfg1.win 4).blk t).view.emb (ix2 (0 : Fin 1) k)) = _
  refine congrArg _ ?_
  funext a; apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * k.val = k.val; omega

/-- The block of W₁ at any point is W₁. -/
theorem blk_w (c : Dev nD) (t : Fin cfg1.N) (k : Fin 128) (j : Fin 64) :
    (iblk1 V c 5 t : Vec Ideal S128x64 .f32) (ix2 k j) = (V c main_arg6 : S128x64.Idx → EReal) (ix2 k j) := by
  obtain ⟨-, -, -, -, -, -, -, -, -, -, -, e0, e1, -⟩ := idx_facts t
  unfold iblk1
  rw [View.read_apply]
  show (V c main_arg6 : S128x64.Idx → EReal) (((cfg1.win 5).blk t).view.emb (ix2 k j)) = _
  refine congrArg _ ?_
  funext a; apply Fin.ext
  match a with
  | ⟨0, _⟩ => show win1_5.index t (0 : Fin 2) * 128 + 1 * k.val = k.val; omega
  | ⟨1, _⟩ => show win1_5.index t (1 : Fin 2) * 64 + 1 * j.val = j.val; omega

/-- The body's payload at entry (p, j), over blocks that agree entrywise with the arrays — the adjacency block's row p
    with row r of the first adjacency matrix —: entry (r, j) of S₁. -/
theorem pay_entry (x0 : Vec Ideal S1x512x8192 .f32) (x1 : Vec Ideal S8192x128 .f32) (x2 x3 x4 : Vec Ideal S1x128 .f32)
    (x5 : Vec Ideal S128x64 .f32) (A : S2x8192x8192.Idx → EReal) (S0 : S8192x128.Idx → EReal)
    (b g be : S1x128.Idx → EReal) (W : S128x64.Idx → EReal) (p : Fin 512) (r : Fin 8192)
    (h0 : ∀ n : Fin 8192, x0 (ix3 (0 : Fin 1) p n) = A (ix3 (0 : Fin 2) r n))
    (h1 : ∀ (n : Fin 8192) (k : Fin 128), x1 (ix2 n k) = S0 (ix2 n k))
    (h2 : ∀ k : Fin 128, x2 (ix2 (0 : Fin 1) k) = b (ix2 (0 : Fin 1) k))
    (h3 : ∀ k : Fin 128, x3 (ix2 (0 : Fin 1) k) = g (ix2 (0 : Fin 1) k))
    (h4 : ∀ k : Fin 128, x4 (ix2 (0 : Fin 1) k) = be (ix2 (0 : Fin 1) k))
    (h5 : ∀ (k : Fin 128) (j : Fin 64), x5 (ix2 k j) = W (ix2 k j)) (j : Fin 64) :
    k1_pay1 (F := Ideal) x0 x1 x2 x3 x4 x5 (ix2 p j) = G A S0 b g be W (ix2 r j) := by
  rw [KPay.pay1]
  show _ = Cert.Spec.rowB (fun n => A (ix3 (0 : Fin 2) r n)) (fun n k => S0 (ix2 n k))
    (fun k => b (ix2 (0 : Fin 1) k)) (fun k => g (ix2 (0 : Fin 1) k)) (fun k => be (ix2 (0 : Fin 1) k))
    (fun k j => W (ix2 k j)) j
  rw [funext h0, funext fun n => funext (h1 n), funext h2, funext h3, funext h4, funext fun k => funext (h5 k)]

/-- What point t writes back is its block of rows of S₁. -/
theorem flushed_eq (c : Dev nD) (t : Fin cfg1.N) :
    (dat1 (F := Ideal) V c).flushed 6 t = ((cfg1.win 6).blk t).view.read (Elt Ideal)
      (G (V c main_arg1) (V c main_v0) (V c main_v1) (V c main_v2) (V c main_v3) (V c main_arg6)) := by
  show (cfg1.win 6).cut (grid1.coords t) ((dat1 (F := Ideal) V c).after 6 t) = _
  rw [after1_6]
  unfold out1_6
  rw [View.canon_unit_zero zeros2]
  simp only [View.ld_unit_zero (S := S1x512x8192) zeros3, View.ld_unit_zero (S := S8192x128) zeros2,
    View.ld_unit_zero (S := S1x128) zeros2, View.ld_unit_zero (S := S128x64) zeros2]
  funext y
  obtain ⟨p, q, rfl⟩ : ∃ (p : Fin 512) (q : Fin 64), y = ix2 p q := ⟨y 0, y 1, eq_ix2 (n0 := 512) (n1 := 64) y⟩
  rw [View.read_apply]
  obtain ⟨-, -, -, -, -, -, -, -, -, -, -, -, -, e0, e1⟩ := idx_facts t
  have hN : t.val < 16 := lt_of_lt_of_eq t.isLt (N_1 : cfg1.N = 16)
  have he : ((cfg1.win 6).blk t).view.emb (ix2 p q) = (ix2 (⟨512 * t.val + p.val, by omega⟩ : Fin 8192) q : S8192x64.Idx) := by
    funext a; apply Fin.ext
    match a with
    | ⟨0, _⟩ => show win1_6.index t (0 : Fin 2) * 512 + 1 * p.val = 512 * t.val + p.val; omega
    | ⟨1, _⟩ => show win1_6.index t (1 : Fin 2) * 64 + 1 * q.val = q.val; omega
  show k1_pay1 (F := Ideal) (iblk1 V c 0 t) (iblk1 V c 1 t) (iblk1 V c 2 t) (iblk1 V c 3 t) (iblk1 V c 4 t) (iblk1 V c 5 t) (ix2 p q)
    = G (V c main_arg1) (V c main_v0) (V c main_v1) (V c main_v2) (V c main_v3) (V c main_arg6)
        (((cfg1.win 6).blk t).view.emb (ix2 p q))
  rw [he]
  exact pay_entry (iblk1 V c 0 t) (iblk1 V c 1 t) (iblk1 V c 2 t) (iblk1 V c 3 t) (iblk1 V c 4 t) (iblk1 V c 5 t)
    (V c main_arg1) (V c main_v0) (V c main_v1) (V c main_v2) (V c main_v3) (V c main_arg6) p ⟨512 * t.val + p.val, by omega⟩
    (blk_adj V c t p ⟨512 * t.val + p.val, by omega⟩ rfl) (blk_s V c t) (blk_b V c t) (blk_g V c t) (blk_be V c t) (blk_w V c t) q

/-- An index of the output array is in point t's block iff each coordinate is in the block's range. -/
theorem mem_blk (t : Fin cfg1.N) (i : S8192x64.Idx) :
    i ∈ ((cfg1.win 6).blk t).view.set ↔ ∀ a : Fin 2, win1_6.index t a * S512x64.size a ≤ (i a).val
      ∧ (i a).val < win1_6.index t a * S512x64.size a + S512x64.size a := by
  show i ∈ ((View.whole main_v4).slice (win1_6.rect t)).set ↔ _
  rw [View.set_slice_whole, Rect.mem_set_unit]
  exact Iff.rfl

/-- The blocks cover the output array: row r is in the block of point r / 512. -/
theorem cover (i : S8192x64.Idx) :
    ∃ t : Fin cfg1.N, (cfg1.win 6).flush t = true ∧ i ∈ ((cfg1.win 6).blk t).view.set := by
  have hi0 : (i 0).val < 8192 := (i 0).isLt
  have hi1 : (i 1).val < 64 := (i 1).isLt
  have hN : cfg1.N = 16 := N_1
  let t : Fin cfg1.N := ⟨(i 0).val / 512, by omega⟩
  have ht : t.val = (i 0).val / 512 := rfl
  refine ⟨t, flush1_6 t, ?_⟩
  rw [mem_blk]
  obtain ⟨-, -, -, -, -, -, -, -, -, -, -, -, -, e0, e1⟩ := idx_facts t
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 64 ≤ (i 1).val ∧ (i 1).val < win1_6.index t (1 : Fin 2) * 64 + 64; omega

/-- The second kernel's output array after its run: S₁ of the arrays it found. -/
theorem final (c : Dev nD) :
    (dat1 (F := Ideal) V c).arrAt 6 cfg1.N
      = G (V c main_arg1) (V c main_v0) (V c main_v1) (V c main_v2) (V c main_v3) (V c main_arg6) :=
  (dat1 (F := Ideal) V c).arrAt_eq_of_cover 6
    (G (V c main_arg1) (V c main_v0) (V c main_v1) (V c main_v2) (V c main_v3) (V c main_arg6))
    (fun t _ => flushed_eq V c t) cover

end Cert.KernelIdeal.KBlocks.Second

end
-- ==== Proof.KBlocks2.lean ====
/-
  The third kernel, from its blocks to its output array: sixteen grid points, point t writes rows 512·t … 512·t + 511,
  each row the row function of the same row of the second adjacency matrix.
-/
import proofs.«127625_g41712722379509_cont_8to1_b_1307_6_alg».proof.Proof.Gen.KernelIdeal.Frame
import proofs.«127625_g41712722379509_cont_8to1_b_1307_6_alg».proof.Proof.KPay
import Idealize.ShloMosaic.Lib.Pipeline.Value

noncomputable section

namespace Cert.KernelIdeal.KBlocks.Third

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- Zero offsets, however spelt. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- The result as an array, row by row, from the arrays the kernel finds. -/
abbrev G (A : S2x8192x8192.Idx → EReal) (S1 : S8192x64.Idx → EReal) (b g be : S1x64.Idx → EReal)
    (W : S64x64.Idx → EReal) (bl : S1x64.Idx → EReal) : S8192x64.Idx → EReal :=
  Cert.Spec.asArr2 fun r => Cert.Spec.rowC (fun n => A (ix3 (1 : Fin 2) r n)) (fun n k => S1 (ix2 n k))
    (fun k => b (ix2 (0 : Fin 1) k)) (fun k => g (ix2 (0 : Fin 1) k)) (fun k => be (ix2 (0 : Fin 1) k))
    (fun k j => W (ix2 k j)) (fun k => bl (ix2 (0 : Fin 1) k))

/-- The block indices over the grid: the adjacency block is (1, t, 0), the output block (t, 0), every other block 0. -/
theorem idx_facts : ∀ t : Fin cfg2.N,
    win2_0.index t (0 : Fin 3) = 1 ∧ win2_0.index t (1 : Fin 3) = t.val ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of the adjacency block at point t is row 512·t + p of the second adjacency matrix. -/
theorem blk_adj (c : Dev nD) (t : Fin cfg2.N) (p : Fin 512) (r : Fin 8192) (hr : r.val = 512 * t.val + p.val)
    (n : Fin 8192) :
    (iblk2 V c 0 t : Vec Ideal S1x512x8192 .f32) (ix3 (0 : Fin 1) p n)
      = (V c main_arg1 : S2x8192x8192.Idx → EReal) (ix3 (1 : Fin 2) r n) := by
  obtain ⟨e0, e1, e2, -⟩ := idx_facts t
  unfold iblk2
  rw [View.read_apply]
  show (V c main_arg1 : S2x8192x8192.Idx → EReal) (((cfg2.win 0).blk t).view.emb (ix3 (0 : Fin 1) p n)) = _
  refine congrArg _ ?_
  funext a; apply Fin.ext
  match a with
  | ⟨0, _⟩ => show win2_0.index t (0 : Fin 3) * 1 + 1 * (0 : Fin 1).val = (1 : Fin 2).val; rw [e0]; rfl
  | ⟨1, _⟩ => show win2_0.index t (1 : Fin 3) * 512 + 1 * p.val = r.val; omega
  | ⟨2, _⟩ => show win2_0.index t (2 : Fin 3) * 8192 + 1 * n.val = n.val; omega

/-- The block of S₁ at any point is S₁. -/
theorem blk_s (c : Dev nD) (t : Fin cfg2.N) (n : Fin 8192) (k : Fin 64) :
    (iblk2 V c 1 t : Vec Ideal S8192x64 .f32) (ix2 n k) = (V c main_v4 : S8192x64.Idx → EReal) (ix2 n k) := by
  obtain ⟨-, -, -, e0, e1, -⟩ := idx_facts t
  unfold iblk2
  rw [View.read_apply]
  show (V c main_v4 : S8192x64.Idx → EReal) (((cfg2.win 1).blk t).view.emb (ix2 n k)) = _
  refine congrArg _ ?_
  funext a; apply Fin.ext
  match a with
  | ⟨0, _⟩ => show win2_1.index t (0 : Fin 2) * 8192 + 1 * n.val = n.val; omega
  | ⟨1, _⟩ => show win2_1.index t (1 : Fin 2) * 64 + 1 * k.val = k.val; omega

/-- The one-row blocks (biases, scale, shift) at any point are the one-row arrays. -/
theorem blk_b (c : Dev nD) (t : Fin cfg2.N) (k : Fin 64) :
    (iblk2 V c 2 t : Vec Ideal S1x64 .f32) (ix2 (0 : Fin 1) k) = (V c main_v5 : S1x64.Idx → EReal) (ix2 (0 : Fin 1) k) := by
  obtain ⟨-, -, -, -, -, e0, e1, -⟩ := idx_facts t
  unfold iblk2
  rw [View.read_apply]
  show (V c main_v5 : S1x64.Idx → EReal) (((cfg2.win 2).blk t).view.emb (ix2 (0 : Fin 1) k)) = _
  refine congrArg _ ?_
  funext a; apply Fin.ext
  match a with
  | ⟨0, _⟩ => show win2_2.index t (0 : Fin 2) * 1 + 1 * (0 : Fin 1).val = (0 : Fin 1).val; rw [e0]; rfl
  | ⟨1, _⟩ => show win2_2.index t (1 : Fin 2) * 64 + 1 * k.val = k.val; omega

theorem blk_g (c : Dev nD) (t : Fin cfg2.N) (k : Fin 64) :
    (iblk2 V c 3 t : Vec Ideal S1x64 .f32) (ix2 (0 : Fin 1) k) = (V c main_v6 : S1x64.Idx → EReal) (ix2 (0 : Fin 1) k) := by
  obtain ⟨-, -, -, -, -, -, -, e0, e1, -⟩ := idx_facts t
  unfold iblk2
  rw [View.read_apply]
  show (V c main_v6 : S1x64.Idx → EReal) (((cfg2.win 3).blk t).view.emb (ix2 (0 : Fin 1) k)) = _
  refine congrArg _ ?_
  funext a; apply Fin.ext
  match a with
  | ⟨0, _⟩ => show win2_3.index t (0 : Fin 2) * 1 + 1 * (0 : Fin 1).val = (0 : Fin 1).val; rw [e0]; rfl
  | ⟨1, _⟩ => show win2_3.index t (1 : Fin 2) * 64 + 1 * k.val = k.val; omega

theorem blk_be (c : Dev nD) (t : Fin cfg2.N) (k : Fin 64) :
    (iblk2 V c 4 t : Vec Ideal S1x64 .f32) (ix2 (0 : Fin 1) k) = (V c main_v7 : S1x64.Idx → EReal) (ix2 (0 : Fin 1) k) := by
  obtain ⟨-, -, -, -, -, -, -, -, -, e0, e1, -⟩ := idx_facts t
  unfold iblk2
  rw [View.read_apply]
  show (V c main_v7 : S1x64.Idx → EReal) (((cfg2.win 4).blk t).view.emb (ix2 (0 : Fin 1) k)) = _
  refine congrArg _ ?_
  funext a; apply Fin.ext
  match a with
  | ⟨0, _⟩ => show win2_4.index t (0 : Fin 2) * 1 + 1 * (0 : Fin 1).val = (0 : Fin 1).val; rw [e0]; rfl
  | ⟨1, _⟩ => show win2_4.index t (1 : Fin 2) * 64 + 1 * k.val = k.val; omega

theorem blk_bl (c : Dev nD) (t : Fin cfg2.N) (k : Fin 64) :
    (iblk2 V c 6 t : Vec Ideal S1x64 .f32) (ix2 (0 : Fin 1) k) = (V c main_v8 : S1x64.Idx → EReal) (ix2 (0 : Fin 1) k) := by
  obtain ⟨-, -, -, -, -, -, -, -, -, -, -, -, -, e0, e1, -⟩ := idx_facts t
  unfold iblk2
  rw [View.read_apply]
  show (V c main_v8 : S1x64.Idx → EReal) (((cfg2.win 6).blk t).view.emb (ix2 (0 : Fin 1) k)) = _
  refine congrArg _ ?_
  funext a; apply Fin.ext
  match a with
  | ⟨0, _⟩ => show win2_6.index t (0 : Fin 2) * 1 + 1 * (0 : Fin 1).val = (0 : Fin 1).val; rw [e0]; rfl
  | ⟨1, _⟩ => show win2_6.index t (1 : Fin 2) * 64 + 1 * k.val = k.val; omega

/-- The block of Wl at any point is Wl. -/
theorem blk_w (c : Dev nD) (t : Fin cfg2.N) (k : Fin 64) (j : Fin 64) :
    (iblk2 V c 5 t : Vec Ideal S64x64 .f32) (ix2 k j) = (V c main_arg10 : S64x64.Idx → EReal) (ix2 k j) := by
  obtain ⟨-, -, -, -, -, -, -, -, -, -, -, e0, e1, -⟩ := idx_facts t
  unfold iblk2
  rw [View.read_apply]
  show (V c main_arg10 : S64x64.Idx → EReal) (((cfg2.win 5).blk t).view.emb (ix2 k j)) = _
  refine congrArg _ ?_
  funext a; apply Fin.ext
  match a with
  | ⟨0, _⟩ => show win2_5.index t (0 : Fin 2) * 64 + 1 * k.val = k.val; omega
  | ⟨1, _⟩ => show win2_5.index t (1 : Fin 2) * 64 + 1 * j.val = j.val; omega

/-- The body's payload at entry (p, j), over blocks that agree entrywise with the arrays — the adjacency block's row p
    with row r of the second adjacency matrix —: entry (r, j) of the result. -/
theorem pay_entry (x0 : Vec Ideal S1x512x8192 .f32) (x1 : Vec Ideal S8192x64 .f32) (x2 x3 x4 : Vec Ideal S1x64 .f32)
    (x5 : Vec Ideal S64x64 .f32) (x6 : Vec Ideal S1x64 .f32) (A : S2x8192x8192.Idx → EReal) (S1 : S8192x64.Idx → EReal)
    (b g be : S1x64.Idx → EReal) (W : S64x64.Idx → EReal) (bl : S1x64.Idx → EReal) (p : Fin 512) (r : Fin 8192)
    (h0 : ∀ n : Fin 8192, x0 (ix3 (0 : Fin 1) p n) = A (ix3 (1 : Fin 2) r n))
    (h1 : ∀ (n : Fin 8192) (k : Fin 64), x1 (ix2 n k) = S1 (ix2 n k))
    (h2 : ∀ k : Fin 64, x2 (ix2 (0 : Fin 1) k) = b (ix2 (0 : Fin 1) k))
    (h3 : ∀ k : Fin 64, x3 (ix2 (0 : Fin 1) k) = g (ix2 (0 : Fin 1) k))
    (h4 : ∀ k : Fin 64, x4 (ix2 (0 : Fin 1) k) = be (ix2 (0 : Fin 1) k))
    (h5 : ∀ (k : Fin 64) (j : Fin 64), x5 (ix2 k j) = W (ix2 k j))
    (h6 : ∀ k : Fin 64, x6 (ix2 (0 : Fin 1) k) = bl (ix2 (0 : Fin 1) k)) (j : Fin 64) :
    k2_pay1 (F := Ideal) (k2_pay2 (F := Ideal) x0 x1 x2 x3 x4) x5 x6 (ix2 p j) = G A S1 b g be W bl (ix2 r j) := by
  rw [KPay.pay2]
  show _ = Cert.Spec.rowC (fun n => A (ix3 (1 : Fin 2) r n)) (fun n k => S1 (ix2 n k))
    (fun k => b (ix2 (0 : Fin 1) k)) (fun k => g (ix2 (0 : Fin 1) k)) (fun k => be (ix2 (0 : Fin 1) k))
    (fun k j => W (ix2 k j)) (fun k => bl (ix2 (0 : Fin 1) k)) j
  rw [funext h0, funext fun n => funext (h1 n), funext h2, funext h3, funext h4, funext fun k => funext (h5 k), funext h6]

/-- What point t writes back is its block of rows of the result. -/
theorem flushed_eq (c : Dev nD) (t : Fin cfg2.N) :
    (dat2 (F := Ideal) V c).flushed 7 t = ((cfg2.win 7).blk t).view.read (Elt Ideal)
      (G (V c main_arg1) (V c main_v4) (V c main_v5) (V c main_v6) (V c main_v7) (V c main_arg10) (V c main_v8)) := by
  show (cfg2.win 7).cut (grid2.coords t) ((dat2 (F := Ideal) V c).after 7 t) = _
  rw [after2_7]
  unfold out2_7
  rw [View.canon_unit_zero zeros2]
  simp only [View.ld_unit_zero (S := S1x512x8192) zeros3, View.ld_unit_zero (S := S8192x64) zeros2,
    View.ld_unit_zero (S := S1x64) zeros2, View.ld_unit_zero (S := S64x64) zeros2]
  funext y
  obtain ⟨p, q, rfl⟩ : ∃ (p : Fin 512) (q : Fin 64), y = ix2 p q := ⟨y 0, y 1, eq_ix2 (n0 := 512) (n1 := 64) y⟩
  rw [View.read_apply]
  obtain ⟨-, -, -, -, -, -, -, -, -, -, -, -, -, -, -, e0, e1⟩ := idx_facts t
  have hN : t.val < 16 := lt_of_lt_of_eq t.isLt (N_2 : cfg2.N = 16)
  have he : ((cfg2.win 7).blk t).view.emb (ix2 p q) = (ix2 (⟨512 * t.val + p.val, by omega⟩ : Fin 8192) q : S8192x64.Idx) := by
    funext a; apply Fin.ext
    match a with
    | ⟨0, _⟩ => show win2_7.index t (0 : Fin 2) * 512 + 1 * p.val = 512 * t.val + p.val; omega
    | ⟨1, _⟩ => show win2_7.index t (1 : Fin 2) * 64 + 1 * q.val = q.val; omega
  show k2_pay1 (F := Ideal) (k2_pay2 (F := Ideal) (iblk2 V c 0 t) (iblk2 V c 1 t) (iblk2 V c 2 t) (iblk2 V c 3 t) (iblk2 V c 4 t))
      (iblk2 V c 5 t) (iblk2 V c 6 t) (ix2 p q)
    = G (V c main_arg1) (V c main_v4) (V c main_v5) (V c main_v6) (V c main_v7) (V c main_arg10) (V c main_v8)
        (((cfg2.win 7).blk t).view.emb (ix2 p q))
  rw [he]
  exact pay_entry (iblk2 V c 0 t) (iblk2 V c 1 t) (iblk2 V c 2 t) (iblk2 V c 3 t) (iblk2 V c 4 t) (iblk2 V c 5 t) (iblk2 V c 6 t)
    (V c main_arg1) (V c main_v4) (V c main_v5) (V c main_v6) (V c main_v7) (V c main_arg10) (V c main_v8) p
    ⟨512 * t.val + p.val, by omega⟩
    (blk_adj V c t p ⟨512 * t.val + p.val, by omega⟩ rfl) (blk_s V c t) (blk_b V c t) (blk_g V c t) (blk_be V c t) (blk_w V c t)
    (blk_bl V c t) q

/-- An index of the output array is in point t's block iff each coordinate is in the block's range. -/
theorem mem_blk (t : Fin cfg2.N) (i : S8192x64.Idx) :
    i ∈ ((cfg2.win 7).blk t).view.set ↔ ∀ a : Fin 2, win2_7.index t a * S512x64.size a ≤ (i a).val
      ∧ (i a).val < win2_7.index t a * S512x64.size a + S512x64.size a := by
  show i ∈ ((View.whole main_v9).slice (win2_7.rect t)).set ↔ _
  rw [View.set_slice_whole, Rect.mem_set_unit]
  exact Iff.rfl

/-- The blocks cover the output array: row r is in the block of point r / 512. -/
theorem cover (i : S8192x64.Idx) :
    ∃ t : Fin cfg2.N, (cfg2.win 7).flush t = true ∧ i ∈ ((cfg2.win 7).blk t).view.set := by
  have hi0 : (i 0).val < 8192 := (i 0).isLt
  have hi1 : (i 1).val < 64 := (i 1).isLt
  have hN : cfg2.N = 16 := N_2
  let t : Fin cfg2.N := ⟨(i 0).val / 512, by omega⟩
  have ht : t.val = (i 0).val / 512 := rfl
  refine ⟨t, flush2_7 t, ?_⟩
  rw [mem_blk]
  obtain ⟨-, -, -, -, -, -, -, -, -, -, -, -, -, -, -, e0, e1⟩ := idx_facts t
  intro a
  match a with
  | ⟨0, _⟩ => show win2_7.index t (0 : Fin 2) * 512 ≤ (i 0).val ∧ (i 0).val < win2_7.index t (0 : Fin 2) * 512 + 512; omega
  | ⟨1, _⟩ => show win2_7.index t (1 : Fin 2) * 64 ≤ (i 1).val ∧ (i 1).val < win2_7.index t (1 : Fin 2) * 64 + 64; omega

/-- The third kernel's output array after its run: the result of the arrays it found. -/
theorem final (c : Dev nD) :
    (dat2 (F := Ideal) V c).arrAt 7 cfg2.N
      = G (V c main_arg1) (V c main_v4) (V c main_v5) (V c main_v6) (V c main_v7) (V c main_arg10) (V c main_v8) :=
  (dat2 (F := Ideal) V c).arrAt_eq_of_cover 7
    (G (V c main_arg1) (V c main_v4) (V c main_v5) (V c main_v6) (V c main_v7) (V c main_arg10) (V c main_v8))
    (fun t _ => flushed_eq V c t) cover

end Cert.KernelIdeal.KBlocks.Third

end
-- ==== Proof.KBlocks.lean ====
/-
  From blocks to arrays: what each of the three kernels leaves in its output array, as one function of the arrays
  the kernel finds when it is entered. Every grid point writes a block of rows of one row-wise function, and the blocks
  cover the array. Each kernel has its own module (the first, the second, the third); here the three results are
  stated side by side.
-/
import proofs.«127625_g41712722379509_cont_8to1_b_1307_6_alg».proof.Proof.Gen.KernelIdeal.Frame
import proofs.«127625_g41712722379509_cont_8to1_b_1307_6_alg».proof.Proof.KPay
import proofs.«127625_g41712722379509_cont_8to1_b_1307_6_alg».proof.Proof.KBlocks0
import proofs.«127625_g41712722379509_cont_8to1_b_1307_6_alg».proof.Proof.KBlocks1
import proofs.«127625_g41712722379509_cont_8to1_b_1307_6_alg».proof.Proof.KBlocks2
import Idealize.ShloMosaic.Lib.Pipeline.Value

noncomputable section

namespace Cert.KernelIdeal.KBlocks

open Cert.KernelIdeal Cert.KernelIdeal.Gen Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The first kernel's output array: x·W₀ of the arrays it finds. -/
theorem final0 (c : Dev nD) :
    (dat0 (F := Ideal) V c).arrAt 2 cfg0.N
      = Cert.Spec.asArr2 (Cert.Spec.prod (V c main_arg0 : S8192x128.Idx → EReal) (V c main_arg2 : S128x128.Idx → EReal)) :=
  First.final V c

/-- The second kernel's output array, row by row. -/
theorem final1 (c : Dev nD) :
    (dat1 (F := Ideal) V c).arrAt 6 cfg1.N
      = Cert.Spec.asArr2 fun r => Cert.Spec.rowB (fun n => (V c main_arg1 : S2x8192x8192.Idx → EReal) (ix3 (0 : Fin 2) r n))
          (fun n k => (V c main_v0 : S8192x128.Idx → EReal) (ix2 n k))
          (fun k => (V c main_v1 : S1x128.Idx → EReal) (ix2 (0 : Fin 1) k))
          (fun k => (V c main_v2 : S1x128.Idx → EReal) (ix2 (0 : Fin 1) k))
          (fun k => (V c main_v3 : S1x128.Idx → EReal) (ix2 (0 : Fin 1) k))
          (fun k j => (V c main_arg6 : S128x64.Idx → EReal) (ix2 k j)) :=
  Second.final V c

/-- The third kernel's output array, row by row. -/
theorem final2 (c : Dev nD) :
    (dat2 (F := Ideal) V c).arrAt 7 cfg2.N
      = Cert.Spec.asArr2 fun r => Cert.Spec.rowC (fun n => (V c main_arg1 : S2x8192x8192.Idx → EReal) (ix3 (1 : Fin 2) r n))
          (fun n k => (V c main_v4 : S8192x64.Idx → EReal) (ix2 n k))
          (fun k => (V c main_v5 : S1x64.Idx → EReal) (ix2 (0 : Fin 1) k))
          (fun k => (V c main_v6 : S1x64.Idx → EReal) (ix2 (0 : Fin 1) k))
          (fun k => (V c main_v7 : S1x64.Idx → EReal) (ix2 (0 : Fin 1) k))
          (fun k j => (V c main_arg10 : S64x64.Idx → EReal) (ix2 k j))
          (fun k => (V c main_v8 : S1x64.Idx → EReal) (ix2 (0 : Fin 1) k)) :=
  Third.final V c

end Cert.KernelIdeal.KBlocks

end
-- ==== Proof.KRun.lean ====
/-
  The kernel program computes the specification: the three kernels and the reshapes between them leave, in the result
  buffer, the two-layer graph convolution `Spec.G` of the twelve argument arrays as launched, and leave the arguments
  as they were. The third kernel's output is `rowC` row by row of what it finds; what it finds is the launch's arrays,
  reshaped vectors of them, and the second kernel's output, which is `rowB` row by row of the launch's arrays, reshaped
  vectors of them, and the first kernel's output x·W₀.
-/
import proofs.«127625_g41712722379509_cont_8to1_b_1307_6_alg».proof.Proof.KRunExposed
import proofs.«127625_g41712722379509_cont_8to1_b_1307_6_alg».proof.Proof.KRunWalk
import proofs.«127625_g41712722379509_cont_8to1_b_1307_6_alg».proof.Proof.KBlocks
import proofs.«127625_g41712722379509_cont_8to1_b_1307_6_alg».proof.Proof.Spec

noncomputable section

namespace Cert.KernelIdeal.KRun

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- What the second kernel finds in the product array: x·W₀ of the launch's x and W₀. -/
theorem found_prod : (fun n k => (V2 m ρ c main_v0 : S8192x128.Idx → EReal) (ix2 n k))
    = Cert.Spec.prod (m ((c : Thread nD τ).loc main_arg0) : S8192x128.Idx → EReal) (m ((c : Thread nD τ).loc main_arg2) : S128x128.Idx → EReal) := by
  rw [KRunWalk.in1_s, KBlocks.final0]
  rfl

/-- What the third kernel finds in the first layer's array: S₁ of the launch's arrays. -/
theorem found_S1 : (fun n k => (V4 m ρ c main_v4 : S8192x64.Idx → EReal) (ix2 n k))
    = Cert.Spec.S1 (m ((c : Thread nD τ).loc main_arg0) : S8192x128.Idx → EReal) (m ((c : Thread nD τ).loc main_arg1) : S2x8192x8192.Idx → EReal) (m ((c : Thread nD τ).loc main_arg2) : S128x128.Idx → EReal)
        (m ((c : Thread nD τ).loc main_arg3) : S128.Idx → EReal) (m ((c : Thread nD τ).loc main_arg4) : S128.Idx → EReal) (m ((c : Thread nD τ).loc main_arg5) : S128.Idx → EReal)
        (m ((c : Thread nD τ).loc main_arg6) : S128x64.Idx → EReal) := by
  rw [KRunWalk.in2_s, KBlocks.final1]
  unfold Cert.Spec.S1
  rw [found_prod, KRunWalk.in1_adj, KRunWalk.in1_w, funext (KRunWalk.in1_b m ρ c), funext (KRunWalk.in1_g m ρ c),
    funext (KRunWalk.in1_be m ρ c)]
  rfl

/-- The last boundary's contents of the result buffer: the specification of the launch's arrays. -/
theorem result : W5 m ρ c (Proc.devRef .tc main_v9)
    = Cert.Spec.G (m ((c : Thread nD τ).loc main_arg0) : S8192x128.Idx → EReal) (m ((c : Thread nD τ).loc main_arg1) : S2x8192x8192.Idx → EReal) (m ((c : Thread nD τ).loc main_arg2) : S128x128.Idx → EReal)
        (m ((c : Thread nD τ).loc main_arg3) : S128.Idx → EReal) (m ((c : Thread nD τ).loc main_arg4) : S128.Idx → EReal) (m ((c : Thread nD τ).loc main_arg5) : S128.Idx → EReal)
        (m ((c : Thread nD τ).loc main_arg6) : S128x64.Idx → EReal) (m ((c : Thread nD τ).loc main_arg7) : S64.Idx → EReal) (m ((c : Thread nD τ).loc main_arg8) : S64.Idx → EReal)
        (m ((c : Thread nD τ).loc main_arg9) : S64.Idx → EReal) (m ((c : Thread nD τ).loc main_arg10) : S64x64.Idx → EReal) (m ((c : Thread nD τ).loc main_arg11) : S64.Idx → EReal) := by
  rw [show W5 m ρ c (Proc.devRef .tc main_v9) = _ from W5_arr m ρ c 7, KBlocks.final2]
  unfold Cert.Spec.G
  rw [found_S1, KRunWalk.in2_adj, KRunWalk.in2_w, funext (KRunWalk.in2_b m ρ c), funext (KRunWalk.in2_g m ρ c),
    funext (KRunWalk.in2_be m ρ c), funext (KRunWalk.in2_bl m ρ c)]

/-- Every weakly fair execution of the kernel program terminates, nothing faulting; the result buffer ends at the
    specification of the launch's argument arrays, and the argument arrays end as launched. -/
theorem run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v9)
        = Cert.Spec.G (m ((c.tc : Thread nD τ).loc main_arg0) : S8192x128.Idx → EReal) (m ((c.tc : Thread nD τ).loc main_arg1) : S2x8192x8192.Idx → EReal) (m ((c.tc : Thread nD τ).loc main_arg2) : S128x128.Idx → EReal)
            (m ((c.tc : Thread nD τ).loc main_arg3) : S128.Idx → EReal) (m ((c.tc : Thread nD τ).loc main_arg4) : S128.Idx → EReal) (m ((c.tc : Thread nD τ).loc main_arg5) : S128.Idx → EReal)
            (m ((c.tc : Thread nD τ).loc main_arg6) : S128x64.Idx → EReal) (m ((c.tc : Thread nD τ).loc main_arg7) : S64.Idx → EReal) (m ((c.tc : Thread nD τ).loc main_arg8) : S64.Idx → EReal)
            (m ((c.tc : Thread nD τ).loc main_arg9) : S64.Idx → EReal) (m ((c.tc : Thread nD τ).loc main_arg10) : S64x64.Idx → EReal) (m ((c.tc : Thread nD τ).loc main_arg11) : S64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (result m ρ c), (h c).2⟩) (KRunExposed.run_exposed (F := Ideal) m ρ)

end Cert.KernelIdeal.KRun

end
-- ==== Proof.RRunOps.lean ====
/-
  The reference program's @main as a LIST of its 99 host operations, in order, cut in eight stretches at the values the
  composed term is cut at. The three module-local functions are listed at their call sites over each call's own buffers:
  unfolding a call is the inlining that happens before anything runs. Then: @main is that straight line, every operation
  stays on the TensorCore's buffers, and the signature scopes nothing — what the straight-line run rule asks.
-/
import proofs.«127625_g41712722379509_cont_8to1_b_1307_6_alg».proof.ReferenceIdeal
import Idealize.ShloMosaic.Lib.StableHlo.Run

noncomputable section

namespace Cert.ReferenceIdeal.RRun

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The first graph convolution: the slice of adjacency matrix 0, the two products, the bias broadcast and the sum (7 operations, ending at `main_v6`). -/
abbrev s1 : List (HloOp τ sig (Elt F)) :=
  [ unary main_arg1 main_v0 ((extractStridedSlice S1x8192x8192 ![0, 0, 0] · slices_S2x8192x8192_S1x8192x8192_0_0_0) : (⟨S2x8192x8192, .f32⟩ : BufTy).Contents (Elt F) → (⟨S1x8192x8192, .f32⟩ : BufTy).Contents (Elt F)),
    reshape main_v0 main_v1 rfl shapeCasts_S1x8192x8192_S8192x8192,
    binary main_arg0 main_arg2 main_v2 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    binary main_v1 main_v2 main_v3 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    unary main_arg3 main_v4 (broadcastInDim S1x128 ![1] bcast_S128_S1x128_1 : (⟨S128, .f32⟩ : BufTy).Contents (Elt F) → (⟨S1x128, .f32⟩ : BufTy).Contents (Elt F)),
    unary main_v4 main_v5 (broadcastInDim S8192x128 ![0, 1] bcast_S1x128_S8192x128_0_1 : (⟨S1x128, .f32⟩ : BufTy).Contents (Elt F) → (⟨S8192x128, .f32⟩ : BufTy).Contents (Elt F)),
    binary main_v3 main_v5 main_v6 (addf : (⟨S8192x128, .f32⟩ : BufTy).Contents (Elt F) → (⟨S8192x128, .f32⟩ : BufTy).Contents (Elt F) → (⟨S8192x128, .f32⟩ : BufTy).Contents (Elt F)) ]

/-- The layer normalisation over 128 columns (29 operations, ending at `main_v30`). -/
abbrev s2 : List (HloOp τ sig (Elt F)) :=
  [ nullary main_cst (constant S_ .f32 0x00000000#32),
    binary main_v6 main_cst main_v7 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v7 main_v8 (broadcastInDim S8192x1 ![0] bcast_S8192_S8192x1_0 : (⟨S8192, .f32⟩ : BufTy).Contents (Elt F) → (⟨S8192x1, .f32⟩ : BufTy).Contents (Elt F)),
    nullary main_cst_0 (constant S_ .f32 0x43000000#32),
    unary main_cst_0 main_v9 (broadcastInDim S8192x1 ![] bcast_S_S8192x1 : (⟨S_, .f32⟩ : BufTy).Contents (Elt F) → (⟨S8192x1, .f32⟩ : BufTy).Contents (Elt F)),
    binary main_v8 main_v9 main_v10 (Host.divf : (⟨S8192x1, .f32⟩ : BufTy).Contents (Elt F) → (⟨S8192x1, .f32⟩ : BufTy).Contents (Elt F) → (⟨S8192x1, .f32⟩ : BufTy).Contents (Elt F)),
    unary main_v10 main_v11 (broadcastInDim S8192x128 ![0, 1] bcast_S8192x1_S8192x128_0_1 : (⟨S8192x1, .f32⟩ : BufTy).Contents (Elt F) → (⟨S8192x128, .f32⟩ : BufTy).Contents (Elt F)),
    binary main_v6 main_v11 main_v12 (subf : (⟨S8192x128, .f32⟩ : BufTy).Contents (Elt F) → (⟨S8192x128, .f32⟩ : BufTy).Contents (Elt F) → (⟨S8192x128, .f32⟩ : BufTy).Contents (Elt F)),
    binary main_v12 main_v12 main_v13 (mulf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x00000000#32),
    binary main_v13 main_cst_1 main_v14 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v14 main_v15 (broadcastInDim S8192x1 ![0] bcast_S8192_S8192x1_0 : (⟨S8192, .f32⟩ : BufTy).Contents (Elt F) → (⟨S8192x1, .f32⟩ : BufTy).Contents (Elt F)),
    nullary main_cst_2 (constant S_ .f32 0x43000000#32),
    unary main_cst_2 main_v16 (broadcastInDim S8192x1 ![] bcast_S_S8192x1 : (⟨S_, .f32⟩ : BufTy).Contents (Elt F) → (⟨S8192x1, .f32⟩ : BufTy).Contents (Elt F)),
    binary main_v15 main_v16 main_v17 (Host.divf : (⟨S8192x1, .f32⟩ : BufTy).Contents (Elt F) → (⟨S8192x1, .f32⟩ : BufTy).Contents (Elt F) → (⟨S8192x1, .f32⟩ : BufTy).Contents (Elt F)),
    unary main_v10 main_v18 (broadcastInDim S8192x128 ![0, 1] bcast_S8192x1_S8192x128_0_1 : (⟨S8192x1, .f32⟩ : BufTy).Contents (Elt F) → (⟨S8192x128, .f32⟩ : BufTy).Contents (Elt F)),
    binary main_v6 main_v18 main_v19 (subf : (⟨S8192x128, .f32⟩ : BufTy).Contents (Elt F) → (⟨S8192x128, .f32⟩ : BufTy).Contents (Elt F) → (⟨S8192x128, .f32⟩ : BufTy).Contents (Elt F)),
    nullary main_cst_3 (constant S_ .f32 0x3727C5AC#32),
    unary main_cst_3 main_v20 (broadcastInDim S8192x1 ![] bcast_S_S8192x1 : (⟨S_, .f32⟩ : BufTy).Contents (Elt F) → (⟨S8192x1, .f32⟩ : BufTy).Contents (Elt F)),
    binary main_v17 main_v20 main_v21 (addf : (⟨S8192x1, .f32⟩ : BufTy).Contents (Elt F) → (⟨S8192x1, .f32⟩ : BufTy).Contents (Elt F) → (⟨S8192x1, .f32⟩ : BufTy).Contents (Elt F)),
    unary main_v21 main_v22 (Host.sqrt : (⟨S8192x1, .f32⟩ : BufTy).Contents (Elt F) → (⟨S8192x1, .f32⟩ : BufTy).Contents (Elt F)),
    unary main_v22 main_v23 (broadcastInDim S8192x128 ![0, 1] bcast_S8192x1_S8192x128_0_1 : (⟨S8192x1, .f32⟩ : BufTy).Contents (Elt F) → (⟨S8192x128, .f32⟩ : BufTy).Contents (Elt F)),
    binary main_v19 main_v23 main_v24 (Host.divf : (⟨S8192x128, .f32⟩ : BufTy).Contents (Elt F) → (⟨S8192x128, .f32⟩ : BufTy).Contents (Elt F) → (⟨S8192x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S8192x128 ![0, 1] bcast_S1x128_S8192x128_0_1 : (⟨S1x128, .f32⟩ : BufTy).Contents (Elt F) → (⟨S8192x128, .f32⟩ : BufTy).Contents (Elt F)),
    binary main_v24 main_v26 main_v27 (mulf : (⟨S8192x128, .f32⟩ : BufTy).Contents (Elt F) → (⟨S8192x128, .f32⟩ : BufTy).Contents (Elt F) → (⟨S8192x128, .f32⟩ : BufTy).Contents (Elt F)),
    unary main_arg5 main_v28 (broadcastInDim S1x128 ![1] bcast_S128_S1x128_1 : (⟨S128, .f32⟩ : BufTy).Contents (Elt F) → (⟨S1x128, .f32⟩ : BufTy).Contents (Elt F)),
    unary main_v28 main_v29 (broadcastInDim S8192x128 ![0, 1] bcast_S1x128_S8192x128_0_1 : (⟨S1x128, .f32⟩ : BufTy).Contents (Elt F) → (⟨S8192x128, .f32⟩ : BufTy).Contents (Elt F)),
    binary main_v27 main_v29 main_v30 (addf : (⟨S8192x128, .f32⟩ : BufTy).Contents (Elt F) → (⟨S8192x128, .f32⟩ : BufTy).Contents (Elt F) → (⟨S8192x128, .f32⟩ : BufTy).Contents (Elt F)) ]

/-- The second graph convolution (7 operations, ending at `main_v37`). -/
abbrev s3 : List (HloOp τ sig (Elt F)) :=
  [ unary main_arg1 main_v31 ((extractStridedSlice S1x8192x8192 ![1, 0, 0] · slices_S2x8192x8192_S1x8192x8192_1_0_0) : (⟨S2x8192x8192, .f32⟩ : BufTy).Contents (Elt F) → (⟨S1x8192x8192, .f32⟩ : BufTy).Contents (Elt F)),
    reshape main_v31 main_v32 rfl shapeCasts_S1x8192x8192_S8192x8192,
    binary main_v30 main_arg6 main_v33 ((fun l r => Host.dotGeneral dot_S8192x128_S128x64_S8192x64_1_0_0_1_n_n none l r) : (⟨S8192x128, .f32⟩ : BufTy).Contents (Elt F) → (⟨S128x64, .f32⟩ : BufTy).Contents (Elt F) → (⟨S8192x64, .f32⟩ : BufTy).Contents (Elt F)),
    binary main_v32 main_v33 main_v34 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    unary main_arg7 main_v35 (broadcastInDim S1x64 ![1] bcast_S64_S1x64_1 : (⟨S64, .f32⟩ : BufTy).Contents (Elt F) → (⟨S1x64, .f32⟩ : BufTy).Contents (Elt F)),
    unary main_v35 main_v36 (broadcastInDim S8192x64 ![0, 1] bcast_S1x64_S8192x64_0_1 : (⟨S1x64, .f32⟩ : BufTy).Contents (Elt F) → (⟨S8192x64, .f32⟩ : BufTy).Contents (Elt F)),
    binary main_v34 main_v36 main_v37 (addf : (⟨S8192x64, .f32⟩ : BufTy).Contents (Elt F) → (⟨S8192x64, .f32⟩ : BufTy).Contents (Elt F) → (⟨S8192x64, .f32⟩ : BufTy).Contents (Elt F)) ]

/-- The layer normalisation over 64 columns, its first 17 operations (the end of @main's first window of statements). -/
abbrev s4a : List (HloOp τ sig (Elt F)) :=
  [ nullary main_cst_4 (constant S_ .f32 0x00000000#32),
    binary main_v37 main_cst_4 main_v38 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v38 main_v39 (broadcastInDim S8192x1 ![0] bcast_S8192_S8192x1_0 : (⟨S8192, .f32⟩ : BufTy).Contents (Elt F) → (⟨S8192x1, .f32⟩ : BufTy).Contents (Elt F)),
    nullary main_cst_5 (constant S_ .f32 0x42800000#32),
    unary main_cst_5 main_v40 (broadcastInDim S8192x1 ![] bcast_S_S8192x1 : (⟨S_, .f32⟩ : BufTy).Contents (Elt F) → (⟨S8192x1, .f32⟩ : BufTy).Contents (Elt F)),
    binary main_v39 main_v40 main_v41 (Host.divf : (⟨S8192x1, .f32⟩ : BufTy).Contents (Elt F) → (⟨S8192x1, .f32⟩ : BufTy).Contents (Elt F) → (⟨S8192x1, .f32⟩ : BufTy).Contents (Elt F)),
    unary main_v41 main_v42 (broadcastInDim S8192x64 ![0, 1] bcast_S8192x1_S8192x64_0_1 : (⟨S8192x1, .f32⟩ : BufTy).Contents (Elt F) → (⟨S8192x64, .f32⟩ : BufTy).Contents (Elt F)),
    binary main_v37 main_v42 main_v43 (subf : (⟨S8192x64, .f32⟩ : BufTy).Contents (Elt F) → (⟨S8192x64, .f32⟩ : BufTy).Contents (Elt F) → (⟨S8192x64, .f32⟩ : BufTy).Contents (Elt F)),
    binary main_v43 main_v43 main_v44 (mulf : (⟨S8192x64, .f32⟩ : BufTy).Contents (Elt F) → (⟨S8192x64, .f32⟩ : BufTy).Contents (Elt F) → (⟨S8192x64, .f32⟩ : BufTy).Contents (Elt F)),
    nullary main_cst_6 (constant S_ .f32 0x00000000#32),
    binary main_v44 main_cst_6 main_v45 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v45 main_v46 (broadcastInDim S8192x1 ![0] bcast_S8192_S8192x1_0 : (⟨S8192, .f32⟩ : BufTy).Contents (Elt F) → (⟨S8192x1, .f32⟩ : BufTy).Contents (Elt F)),
    nullary main_cst_7 (constant S_ .f32 0x42800000#32),
    unary main_cst_7 main_v47 (broadcastInDim S8192x1 ![] bcast_S_S8192x1 : (⟨S_, .f32⟩ : BufTy).Contents (Elt F) → (⟨S8192x1, .f32⟩ : BufTy).Contents (Elt F)),
    binary main_v46 main_v47 main_v48 (Host.divf : (⟨S8192x1, .f32⟩ : BufTy).Contents (Elt F) → (⟨S8192x1, .f32⟩ : BufTy).Contents (Elt F) → (⟨S8192x1, .f32⟩ : BufTy).Contents (Elt F)),
    unary main_v41 main_v49 (broadcastInDim S8192x64 ![0, 1] bcast_S8192x1_S8192x64_0_1 : (⟨S8192x1, .f32⟩ : BufTy).Contents (Elt F) → (⟨S8192x64, .f32⟩ : BufTy).Contents (Elt F)),
    binary main_v37 main_v49 main_v50 (subf : (⟨S8192x64, .f32⟩ : BufTy).Contents (Elt F) → (⟨S8192x64, .f32⟩ : BufTy).Contents (Elt F) → (⟨S8192x64, .f32⟩ : BufTy).Contents (Elt F)) ]

/-- The layer normalisation over 64 columns, its last 12 operations (ending at `main_v61`). -/
abbrev s4b : List (HloOp τ sig (Elt F)) :=
  [ nullary main_cst_8 (constant S_ .f32 0x3727C5AC#32),
    unary main_cst_8 main_v51 (broadcastInDim S8192x1 ![] bcast_S_S8192x1 : (⟨S_, .f32⟩ : BufTy).Contents (Elt F) → (⟨S8192x1, .f32⟩ : BufTy).Contents (Elt F)),
    binary main_v48 main_v51 main_v52 (addf : (⟨S8192x1, .f32⟩ : BufTy).Contents (Elt F) → (⟨S8192x1, .f32⟩ : BufTy).Contents (Elt F) → (⟨S8192x1, .f32⟩ : BufTy).Contents (Elt F)),
    unary main_v52 main_v53 (Host.sqrt : (⟨S8192x1, .f32⟩ : BufTy).Contents (Elt F) → (⟨S8192x1, .f32⟩ : BufTy).Contents (Elt F)),
    unary main_v53 main_v54 (broadcastInDim S8192x64 ![0, 1] bcast_S8192x1_S8192x64_0_1 : (⟨S8192x1, .f32⟩ : BufTy).Contents (Elt F) → (⟨S8192x64, .f32⟩ : BufTy).Contents (Elt F)),
    binary main_v50 main_v54 main_v55 (Host.divf : (⟨S8192x64, .f32⟩ : BufTy).Contents (Elt F) → (⟨S8192x64, .f32⟩ : BufTy).Contents (Elt F) → (⟨S8192x64, .f32⟩ : BufTy).Contents (Elt F)),
    unary main_arg8 main_v56 (broadcastInDim S1x64 ![1] bcast_S64_S1x64_1 : (⟨S64, .f32⟩ : BufTy).Contents (Elt F) → (⟨S1x64, .f32⟩ : BufTy).Contents (Elt F)),
    unary main_v56 main_v57 (broadcastInDim S8192x64 ![0, 1] bcast_S1x64_S8192x64_0_1 : (⟨S1x64, .f32⟩ : BufTy).Contents (Elt F) → (⟨S8192x64, .f32⟩ : BufTy).Contents (Elt F)),
    binary main_v55 main_v57 main_v58 (mulf : (⟨S8192x64, .f32⟩ : BufTy).Contents (Elt F) → (⟨S8192x64, .f32⟩ : BufTy).Contents (Elt F) → (⟨S8192x64, .f32⟩ : BufTy).Contents (Elt F)),
    unary main_arg9 main_v59 (broadcastInDim S1x64 ![1] bcast_S64_S1x64_1 : (⟨S64, .f32⟩ : BufTy).Contents (Elt F) → (⟨S1x64, .f32⟩ : BufTy).Contents (Elt F)),
    unary main_v59 main_v60 (broadcastInDim S8192x64 ![0, 1] bcast_S1x64_S8192x64_0_1 : (⟨S1x64, .f32⟩ : BufTy).Contents (Elt F) → (⟨S8192x64, .f32⟩ : BufTy).Contents (Elt F)),
    binary main_v58 main_v60 main_v61 (addf : (⟨S8192x64, .f32⟩ : BufTy).Contents (Elt F) → (⟨S8192x64, .f32⟩ : BufTy).Contents (Elt F) → (⟨S8192x64, .f32⟩ : BufTy).Contents (Elt F)) ]

/-- The slope constant and the leaky rectifier's seven operations, the select of `_where` among them, listed at the call over the call's buffers (ending at `main_v62`). -/
abbrev s5 : List (HloOp τ sig (Elt F)) :=
  [ nullary main_cst_9 (constant S_ .f32 0x3C23D70A#32),
    TRef.nullary main_call0.cst (constant S_ .f32 0x00000000#32),
    TRef.unary main_call0.cst main_call0.v0 (broadcastInDim S8192x64 ![] bcast_S_S8192x64),
    TRef.binary (.of main_v61 : TRef sig ⟨S8192x64, .f32⟩) main_call0.v0 main_call0.v1 (cmpf .oge),
    TRef.unary (.of main_cst_9 : TRef sig ⟨S_, .f32⟩) main_call0.v2 id,
    TRef.unary main_call0.v2 main_call0.v3 (broadcastInDim S8192x64 ![] bcast_S_S8192x64),
    TRef.binary main_call0.v3 (.of main_v61 : TRef sig ⟨S8192x64, .f32⟩) main_call0.v4 mulf,
    TRef.ternary main_call0.v1 (.of main_v61 : TRef sig ⟨S8192x64, .f32⟩) main_call0.v4 main_call0.call0.v0 select ]

/-- The last linear map (4 operations, ending at `main_v66`). -/
abbrev s6 : List (HloOp τ sig (Elt F)) :=
  [ binary main_v62 main_arg10 main_v63 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg11 main_v64 (broadcastInDim S1x64 ![1] bcast_S64_S1x64_1 : (⟨S64, .f32⟩ : BufTy).Contents (Elt F) → (⟨S1x64, .f32⟩ : BufTy).Contents (Elt F)),
    unary main_v64 main_v65 (broadcastInDim S8192x64 ![0, 1] bcast_S1x64_S8192x64_0_1 : (⟨S1x64, .f32⟩ : BufTy).Contents (Elt F) → (⟨S8192x64, .f32⟩ : BufTy).Contents (Elt F)),
    binary main_v63 main_v65 main_v66 (addf : (⟨S8192x64, .f32⟩ : BufTy).Contents (Elt F) → (⟨S8192x64, .f32⟩ : BufTy).Contents (Elt F) → (⟨S8192x64, .f32⟩ : BufTy).Contents (Elt F)) ]

/-- The log-softmax's fifteen operations, listed at the call over the call's buffers (ending at `main_v67`). -/
abbrev s7 : List (HloOp τ sig (Elt F)) :=
  [ TRef.nullary main_call1.cst (constant S_ .f32 0xFF800000#32),
    TRef.binary (.of main_v66 : TRef sig ⟨S8192x64, .f32⟩) main_call1.cst main_call1.v0 (fun x v => Host.reduce FloatOps.maximumf x v reducesTo_S8192x64_S8192_d1 h_S_),
    TRef.nullary main_call1.cst_0 (constant S_ .f32 0xFF800000#32),
    TRef.unary main_call1.cst_0 main_call1.v1 (broadcastInDim S8192 ![] bcast_S_S8192),
    TRef.binary main_call1.v1 main_call1.v0 main_call1.v2 maximumf,
    TRef.unary main_call1.v2 main_call1.v3 (broadcastInDim S8192x1 ![0] bcast_S8192_S8192x1_0),
    TRef.unary main_call1.v3 main_call1.v4 (broadcastInDim S8192x64 ![0, 1] bcast_S8192x1_S8192x64_0_1),
    TRef.binary (.of main_v66 : TRef sig ⟨S8192x64, .f32⟩) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S8192x64_S8192_d1 h_S_),
    TRef.unary main_call1.v7 main_call1.v8 (broadcastInDim S8192x1 ![0] bcast_S8192_S8192x1_0),
    TRef.unary main_call1.v8 main_call1.v9 Host.log,
    TRef.unary main_call1.v9 main_call1.v10 (broadcastInDim S8192x64 ![0, 1] bcast_S8192x1_S8192x64_0_1),
    TRef.binary main_call1.v5 main_call1.v10 main_call1.v11 subf ]

/-- @main's first window of statements: 60 operations. -/
abbrev opsA : List (HloOp τ sig (Elt F)) := s1 ++ (s2 ++ (s3 ++ s4a))
/-- @main's second window of statements, the calls unfolded: 39 operations. -/
abbrev opsB : List (HloOp τ sig (Elt F)) := s4b ++ (s5 ++ (s6 ++ s7))
/-- @main's 99 operations, in order. -/
abbrev ops : List (HloOp τ sig (Elt F)) := opsA ++ opsB

/-- The first window is its sixty operations in sequence, as printed. -/
theorem part0_eq (c : Dev nD) : main_part0 (F := F) c = seq opsA := rfl

set_option maxHeartbeats 1000000 in  -- thirty-nine steps compared one by one, three definitions opened on the way
/-- The second window: the functions' definitions unfolded at their calls and the records at their fields, both sides
    are one chain of `hlo` steps. -/
theorem part1_eq (c : Dev nD) : main_part1 (F := F) c = seq opsB := rfl

/-- @main runs the two windows in order: the concatenation run as one line. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem s1_sub : (s1 : List (HloOp τ sig (Elt F))).Forall fun op => op.bufs ⊆ tcRefs τ sig :=
  ⟨unary_bufs_sub .., reshape_bufs_sub .., binary_bufs_sub .., binary_bufs_sub .., unary_bufs_sub .., unary_bufs_sub ..,
    binary_bufs_sub ..⟩

theorem s2_sub : (s2 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

theorem s3_sub : (s3 : List (HloOp τ sig (Elt F))).Forall fun op => op.bufs ⊆ tcRefs τ sig :=
  ⟨unary_bufs_sub .., reshape_bufs_sub .., binary_bufs_sub .., binary_bufs_sub .., unary_bufs_sub .., unary_bufs_sub ..,
    binary_bufs_sub ..⟩

theorem s4a_sub : (s4a : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub ..⟩

theorem s4b_sub : (s4b : List (HloOp τ sig (Elt F))).Forall fun op => op.bufs ⊆ tcRefs τ sig :=
  ⟨nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

theorem s5_sub : (s5 : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem s6_sub : (s6 : List (HloOp τ sig (Elt F))).Forall fun op => op.bufs ⊆ tcRefs τ sig :=
  ⟨binary_bufs_sub .., unary_bufs_sub .., unary_bufs_sub .., binary_bufs_sub ..⟩

theorem s7_sub : (s7 : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩

theorem ops_sub : (ops : List (HloOp τ sig (Elt F))).Forall fun op => op.bufs ⊆ tcRefs τ sig :=
  forall_append (forall_append s1_sub (forall_append s2_sub (forall_append s3_sub s4a_sub)))
    (forall_append s4b_sub (forall_append s5_sub (forall_append s6_sub s7_sub)))

end Cert.ReferenceIdeal.RRun

end
-- ==== Proof.RefTerm.lean ====
/-
  The reference's result as ONE term of its argument arrays: its host operations composed in the order the program
  applies them — the two graph convolutions (`gcn1`, `gcn2`), the two layer normalisations (`ln128`, `ln64`), the leaky
  rectifier, the last linear map (`head`) and the log-softmax.
-/
import proofs.«127625_g41712722379509_cont_8to1_b_1307_6_alg».proof.ReferenceIdeal

noncomputable section

namespace Cert.ReferenceIdeal.RefTerm

open Cert.ReferenceIdeal Cert.ReferenceIdeal.Facts₀ Idealize.ShloMosaic

variable {F : FTy → Type} [FloatOps F] [Facts]

/-- Adjacency matrix 0 as a matrix: the slice [0:1] of the stack, its unit axis dropped. -/
def adj0 (a : FVec F S2x8192x8192 .f32) : FVec F S8192x8192 .f32 :=
  shapeCast S8192x8192 (extractStridedSlice S1x8192x8192 ![0, 0, 0] a slices_S2x8192x8192_S1x8192x8192_0_0_0)
    shapeCasts_S1x8192x8192_S8192x8192

/-- Adjacency matrix 1 as a matrix. -/
def adj1 (a : FVec F S2x8192x8192 .f32) : FVec F S8192x8192 .f32 :=
  shapeCast S8192x8192 (extractStridedSlice S1x8192x8192 ![1, 0, 0] a slices_S2x8192x8192_S1x8192x8192_1_0_0)
    shapeCasts_S1x8192x8192_S8192x8192

/-- A vector of length 128 repeated down 8192 rows. -/
def rows128 (b : FVec F S128 .f32) : FVec F S8192x128 .f32 :=
  broadcastInDim S8192x128 ![0, 1] bcast_S1x128_S8192x128_0_1 (broadcastInDim S1x128 ![1] bcast_S128_S1x128_1 b)

/-- A vector of length 64 repeated down 8192 rows. -/
def rows64 (b : FVec F S64 .f32) : FVec F S8192x64 .f32 :=
  broadcastInDim S8192x64 ![0, 1] bcast_S1x64_S8192x64_0_1 (broadcastInDim S1x64 ![1] bcast_S64_S1x64_1 b)

/-- A literal as a column of 8192 entries. -/
def col (bits : BitVec 32) : FVec F S8192x1 .f32 :=
  broadcastInDim S8192x1 ![] bcast_S_S8192x1 (constant S_ .f32 bits)

/-- The first graph convolution: A₀·(x·W₀) + b₀. -/
def gcn1 (x : FVec F S8192x128 .f32) (a : FVec F S2x8192x8192 .f32) (W0 : FVec F S128x128 .f32) (b0 : FVec F S128 .f32) :
    FVec F S8192x128 .f32 :=
  addf (Host.dotGeneral dot_S8192x8192_S8192x128_S8192x128_1_0_0_1_n_n none (adj0 a)
      (Host.dotGeneral dot_S8192x128_S128x128_S8192x128_1_0_0_1_n_n none x W0)) (rows128 b0)

/-- Row means of an 8192×128 array, as a column. -/
def mean128 (h : FVec F S8192x128 .f32) : FVec F S8192x1 .f32 :=
  Host.divf (broadcastInDim S8192x1 ![0] bcast_S8192_S8192x1_0
    (Host.reduceAdd h (constant S_ .f32 0x00000000#32) reducesTo_S8192x128_S8192_d1 h_S_)) (col 0x43000000#32)

/-- The array minus its row means. -/
def centered128 (h : FVec F S8192x128 .f32) : FVec F S8192x128 .f32 :=
  subf h (broadcastInDim S8192x128 ![0, 1] bcast_S8192x1_S8192x128_0_1 (mean128 h))

/-- Layer normalisation over the 128 columns. -/
def ln128 (h : FVec F S8192x128 .f32) (g be : FVec F S128 .f32) : FVec F S8192x128 .f32 :=
  addf (mulf (Host.divf (centered128 h) (broadcastInDim S8192x128 ![0, 1] bcast_S8192x1_S8192x128_0_1
      (Host.sqrt (addf (Host.divf (broadcastInDim S8192x1 ![0] bcast_S8192_S8192x1_0
          (Host.reduceAdd (mulf (centered128 h) (centered128 h)) (constant S_ .f32 0x00000000#32) reducesTo_S8192x128_S8192_d1 h_S_))
        (col 0x43000000#32)) (col 0x3727C5AC#32))))) (rows128 g)) (rows128 be)

/-- The second graph convolution: A₁·(y·W₁) + b₁. -/
def gcn2 (y : FVec F S8192x128 .f32) (a : FVec F S2x8192x8192 .f32) (W1 : FVec F S128x64 .f32) (b1 : FVec F S64 .f32) :
    FVec F S8192x64 .f32 :=
  addf (Host.dotGeneral dot_S8192x8192_S8192x64_S8192x64_1_0_0_1_n_n none (adj1 a)
      (Host.dotGeneral dot_S8192x128_S128x64_S8192x64_1_0_0_1_n_n none y W1)) (rows64 b1)

/-- Row means of an 8192×64 array, as a column. -/
def mean64 (h : FVec F S8192x64 .f32) : FVec F S8192x1 .f32 :=
  Host.divf (broadcastInDim S8192x1 ![0] bcast_S8192_S8192x1_0
    (Host.reduceAdd h (constant S_ .f32 0x00000000#32) reducesTo_S8192x64_S8192_d1 h_S_)) (col 0x42800000#32)

/-- The array minus its row means. -/
def centered64 (h : FVec F S8192x64 .f32) : FVec F S8192x64 .f32 :=
  subf h (broadcastInDim S8192x64 ![0, 1] bcast_S8192x1_S8192x64_0_1 (mean64 h))

/-- Layer normalisation over the 64 columns. -/
def ln64 (h : FVec F S8192x64 .f32) (g be : FVec F S64 .f32) : FVec F S8192x64 .f32 :=
  addf (mulf (Host.divf (centered64 h) (broadcastInDim S8192x64 ![0, 1] bcast_S8192x1_S8192x64_0_1
      (Host.sqrt (addf (Host.divf (broadcastInDim S8192x1 ![0] bcast_S8192_S8192x1_0
          (Host.reduceAdd (mulf (centered64 h) (centered64 h)) (constant S_ .f32 0x00000000#32) reducesTo_S8192x64_S8192_d1 h_S_))
        (col 0x42800000#32)) (col 0x3727C5AC#32))))) (rows64 g)) (rows64 be)

/-- The leaky rectifier: h where h ≥ 0, 0.01·h elsewhere. -/
def leaky (h : FVec F S8192x64 .f32) : FVec F S8192x64 .f32 :=
  select (cmpf .oge h (broadcastInDim S8192x64 ![] bcast_S_S8192x64 (constant S_ .f32 0x00000000#32))) h
    (mulf (broadcastInDim S8192x64 ![] bcast_S_S8192x64 (id (constant S_ .f32 0x3C23D70A#32))) h)

/-- The last linear map: z·Wl + bl. -/
def head (z : FVec F S8192x64 .f32) (Wl : FVec F S64x64 .f32) (bl : FVec F S64 .f32) : FVec F S8192x64 .f32 :=
  addf (Host.dotGeneral dot_S8192x64_S64x64_S8192x64_1_0_0_1_n_n none z Wl) (rows64 bl)

/-- The array minus its row maxima. -/
def shifted (o : FVec F S8192x64 .f32) : FVec F S8192x64 .f32 :=
  subf o (broadcastInDim S8192x64 ![0, 1] bcast_S8192x1_S8192x64_0_1 (broadcastInDim S8192x1 ![0] bcast_S8192_S8192x1_0
    (maximumf (broadcastInDim S8192 ![] bcast_S_S8192 (constant S_ .f32 0xFF800000#32))
      (Host.reduce FloatOps.maximumf o (constant S_ .f32 0xFF800000#32) reducesTo_S8192x64_S8192_d1 h_S_))))

/-- The log-softmax of every row. -/
def logSoftmax (o : FVec F S8192x64 .f32) : FVec F S8192x64 .f32 :=
  subf (shifted o) (broadcastInDim S8192x64 ![0, 1] bcast_S8192x1_S8192x64_0_1 (Host.log
    (broadcastInDim S8192x1 ![0] bcast_S8192_S8192x1_0
      (Host.reduceAdd (Host.exp (shifted o)) (constant S_ .f32 0x00000000#32) reducesTo_S8192x64_S8192_d1 h_S_))))

/-- The reference's result. -/
def result (x : FVec F S8192x128 .f32) (a : FVec F S2x8192x8192 .f32) (W0 : FVec F S128x128 .f32) (b0 g0 be0 : FVec F S128 .f32)
    (W1 : FVec F S128x64 .f32) (b1 g1 be1 : FVec F S64 .f32) (Wl : FVec F S64x64 .f32) (bl : FVec F S64 .f32) : FVec F S8192x64 .f32 :=
  logSoftmax (head (leaky (ln64 (gcn2 (ln128 (gcn1 x a W0 b0) g0 be0) a W1 b1) g1 be1)) Wl bl)

end Cert.ReferenceIdeal.RefTerm

end
-- ==== Proof.RRun.lean ====
/-
  The reference program's run, read back: every weakly fair execution of @main terminates with the result buffer at the
  composed term of the twelve argument arrays at launch, the arguments unchanged. The fold of the 99 operations over
  the launch contents is read stretch by stretch: each stretch's result is one of the composed term's named pieces of
  the values before it, and no operation writes an argument.
-/
import proofs.«127625_g41712722379509_cont_8to1_b_1307_6_alg».proof.Proof.RRunOps
import proofs.«127625_g41712722379509_cont_8to1_b_1307_6_alg».proof.Proof.RefTerm

noncomputable section

namespace Cert.ReferenceIdeal.RRun

open Cert.ReferenceIdeal Cert.ReferenceIdeal.Facts₀ Cert.ReferenceIdeal.RefTerm Idealize.ShloMosaic Idealize.ShloMosaic.TcCoe Idealize.SL.Sem Idealize.ShloMosaic.StableHlo

variable {F : FTy → Type} [FloatOps F] [Facts]

/-- The fold over a concatenation is the fold over the second list from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## Each stretch's result, from any contents

Each is the fold unrolled and every operation's result rewritten to its function's value, which leaves the stretch's
functions composed; that is the named piece by definition. In the two stretches that hold a function's operations
(the rectifier's and the log-softmax's) each value is moved to its buffer's type and back along an equation between a
type and itself: those moves are the identity and are removed first. -/

theorem stage1 (W : Valuation τ sig (Elt F)) :
    after s1 W (Proc.devRef .tc main_v6) = gcn1 (W (Proc.devRef .tc main_arg0)) (W (Proc.devRef .tc main_arg1)) (W (Proc.devRef .tc main_arg2)) (W (Proc.devRef .tc main_arg3)) := by
  after_results_simp
  rfl

theorem stage2 (W : Valuation τ sig (Elt F)) :
    after s2 W (Proc.devRef .tc main_v30) = ln128 (W (Proc.devRef .tc main_v6)) (W (Proc.devRef .tc main_arg4)) (W (Proc.devRef .tc main_arg5)) := by
  after_results_simp
  rfl

theorem stage3 (W : Valuation τ sig (Elt F)) :
    after s3 W (Proc.devRef .tc main_v37) = gcn2 (W (Proc.devRef .tc main_v30)) (W (Proc.devRef .tc main_arg1)) (W (Proc.devRef .tc main_arg6)) (W (Proc.devRef .tc main_arg7)) := by
  after_results_simp
  rfl

theorem stage4 (W : Valuation τ sig (Elt F)) :
    after s4b (after s4a W) (Proc.devRef .tc main_v61) = ln64 (W (Proc.devRef .tc main_v37)) (W (Proc.devRef .tc main_arg8)) (W (Proc.devRef .tc main_arg9)) := by
  after_results_simp
  rfl

theorem stage5 (W : Valuation τ sig (Elt F)) :
    after s5 W (Proc.devRef .tc main_v62) = leaky (W (Proc.devRef .tc main_v61)) := by
  after_results_simp
  simp only [cast_cast, cast_eq]
  rfl

theorem stage6 (W : Valuation τ sig (Elt F)) :
    after s6 W (Proc.devRef .tc main_v66) = head (W (Proc.devRef .tc main_v62)) (W (Proc.devRef .tc main_arg10)) (W (Proc.devRef .tc main_arg11)) := by
  after_results_simp
  rfl

theorem stage7 (W : Valuation τ sig (Elt F)) :
    after s7 W (Proc.devRef .tc main_v67) = logSoftmax (W (Proc.devRef .tc main_v66)) := by
  after_results_simp
  simp only [cast_cast, cast_eq]
  rfl

/-! ## The arguments a later stretch reads are what they were: no operation writes an argument -/

theorem s1_arg4 (W : Valuation τ sig (Elt F)) : after s1 W (Proc.devRef .tc main_arg4) = W (Proc.devRef .tc main_arg4) := by
  after_results_simp
theorem s1_arg5 (W : Valuation τ sig (Elt F)) : after s1 W (Proc.devRef .tc main_arg5) = W (Proc.devRef .tc main_arg5) := by
  after_results_simp
theorem s1_arg1 (W : Valuation τ sig (Elt F)) : after s1 W (Proc.devRef .tc main_arg1) = W (Proc.devRef .tc main_arg1) := by
  after_results_simp
theorem s1_arg6 (W : Valuation τ sig (Elt F)) : after s1 W (Proc.devRef .tc main_arg6) = W (Proc.devRef .tc main_arg6) := by
  after_results_simp
theorem s1_arg7 (W : Valuation τ sig (Elt F)) : after s1 W (Proc.devRef .tc main_arg7) = W (Proc.devRef .tc main_arg7) := by
  after_results_simp
theorem s1_arg8 (W : Valuation τ sig (Elt F)) : after s1 W (Proc.devRef .tc main_arg8) = W (Proc.devRef .tc main_arg8) := by
  after_results_simp
theorem s1_arg9 (W : Valuation τ sig (Elt F)) : after s1 W (Proc.devRef .tc main_arg9) = W (Proc.devRef .tc main_arg9) := by
  after_results_simp
theorem s1_arg10 (W : Valuation τ sig (Elt F)) : after s1 W (Proc.devRef .tc main_arg10) = W (Proc.devRef .tc main_arg10) := by
  after_results_simp
theorem s1_arg11 (W : Valuation τ sig (Elt F)) : after s1 W (Proc.devRef .tc main_arg11) = W (Proc.devRef .tc main_arg11) := by
  after_results_simp
theorem s2_arg1 (W : Valuation τ sig (Elt F)) : after s2 W (Proc.devRef .tc main_arg1) = W (Proc.devRef .tc main_arg1) := by
  after_results_simp
theorem s2_arg6 (W : Valuation τ sig (Elt F)) : after s2 W (Proc.devRef .tc main_arg6) = W (Proc.devRef .tc main_arg6) := by
  after_results_simp
theorem s2_arg7 (W : Valuation τ sig (Elt F)) : after s2 W (Proc.devRef .tc main_arg7) = W (Proc.devRef .tc main_arg7) := by
  after_results_simp
theorem s2_arg8 (W : Valuation τ sig (Elt F)) : after s2 W (Proc.devRef .tc main_arg8) = W (Proc.devRef .tc main_arg8) := by
  after_results_simp
theorem s2_arg9 (W : Valuation τ sig (Elt F)) : after s2 W (Proc.devRef .tc main_arg9) = W (Proc.devRef .tc main_arg9) := by
  after_results_simp
theorem s2_arg10 (W : Valuation τ sig (Elt F)) : after s2 W (Proc.devRef .tc main_arg10) = W (Proc.devRef .tc main_arg10) := by
  after_results_simp
theorem s2_arg11 (W : Valuation τ sig (Elt F)) : after s2 W (Proc.devRef .tc main_arg11) = W (Proc.devRef .tc main_arg11) := by
  after_results_simp
theorem s3_arg8 (W : Valuation τ sig (Elt F)) : after s3 W (Proc.devRef .tc main_arg8) = W (Proc.devRef .tc main_arg8) := by
  after_results_simp
theorem s3_arg9 (W : Valuation τ sig (Elt F)) : after s3 W (Proc.devRef .tc main_arg9) = W (Proc.devRef .tc main_arg9) := by
  after_results_simp
theorem s3_arg10 (W : Valuation τ sig (Elt F)) : after s3 W (Proc.devRef .tc main_arg10) = W (Proc.devRef .tc main_arg10) := by
  after_results_simp
theorem s3_arg11 (W : Valuation τ sig (Elt F)) : after s3 W (Proc.devRef .tc main_arg11) = W (Proc.devRef .tc main_arg11) := by
  after_results_simp
theorem s4a_arg10 (W : Valuation τ sig (Elt F)) : after s4a W (Proc.devRef .tc main_arg10) = W (Proc.devRef .tc main_arg10) := by
  after_results_simp
theorem s4a_arg11 (W : Valuation τ sig (Elt F)) : after s4a W (Proc.devRef .tc main_arg11) = W (Proc.devRef .tc main_arg11) := by
  after_results_simp
theorem s4b_arg10 (W : Valuation τ sig (Elt F)) : after s4b W (Proc.devRef .tc main_arg10) = W (Proc.devRef .tc main_arg10) := by
  after_results_simp
theorem s4b_arg11 (W : Valuation τ sig (Elt F)) : after s4b W (Proc.devRef .tc main_arg11) = W (Proc.devRef .tc main_arg11) := by
  after_results_simp
theorem s5_arg10 (W : Valuation τ sig (Elt F)) : after s5 W (Proc.devRef .tc main_arg10) = W (Proc.devRef .tc main_arg10) := by
  after_results_simp
theorem s5_arg11 (W : Valuation τ sig (Elt F)) : after s5 W (Proc.devRef .tc main_arg11) = W (Proc.devRef .tc main_arg11) := by
  after_results_simp

/-! ## The whole line -/

/-- The result buffer after the 99 operations: the composed term of the arguments' contents. -/
theorem result_eq (V : Valuation τ sig (Elt F)) :
    after ops V (Proc.devRef .tc main_v67) = result (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [after_app]
  rw [stage7, stage6, stage5, stage4, stage3, stage2, stage1]
  rw [s5_arg10, s5_arg11, s4b_arg10, s4b_arg11, s4a_arg10, s4a_arg11, s3_arg8, s3_arg9, s3_arg10, s3_arg11, s2_arg1, s2_arg6, s2_arg7, s2_arg8, s2_arg9, s2_arg10, s2_arg11, s1_arg4, s1_arg5, s1_arg1, s1_arg6, s1_arg7, s1_arg8, s1_arg9, s1_arg10, s1_arg11]
  rfl

theorem arg0_eq (V : Valuation τ sig (Elt F)) : after ops V (Proc.devRef .tc main_arg0) = V (Proc.devRef .tc main_arg0) := by
  simp only [after_app]
  after_results_simp
theorem arg1_eq (V : Valuation τ sig (Elt F)) : after ops V (Proc.devRef .tc main_arg1) = V (Proc.devRef .tc main_arg1) := by
  simp only [after_app]
  after_results_simp
theorem arg2_eq (V : Valuation τ sig (Elt F)) : after ops V (Proc.devRef .tc main_arg2) = V (Proc.devRef .tc main_arg2) := by
  simp only [after_app]
  after_results_simp
theorem arg3_eq (V : Valuation τ sig (Elt F)) : after ops V (Proc.devRef .tc main_arg3) = V (Proc.devRef .tc main_arg3) := by
  simp only [after_app]
  after_results_simp
theorem arg4_eq (V : Valuation τ sig (Elt F)) : after ops V (Proc.devRef .tc main_arg4) = V (Proc.devRef .tc main_arg4) := by
  simp only [after_app]
  after_results_simp
theorem arg5_eq (V : Valuation τ sig (Elt F)) : after ops V (Proc.devRef .tc main_arg5) = V (Proc.devRef .tc main_arg5) := by
  simp only [after_app]
  after_results_simp
theorem arg6_eq (V : Valuation τ sig (Elt F)) : after ops V (Proc.devRef .tc main_arg6) = V (Proc.devRef .tc main_arg6) := by
  simp only [after_app]
  after_results_simp
theorem arg7_eq (V : Valuation τ sig (Elt F)) : after ops V (Proc.devRef .tc main_arg7) = V (Proc.devRef .tc main_arg7) := by
  simp only [after_app]
  after_results_simp
theorem arg8_eq (V : Valuation τ sig (Elt F)) : after ops V (Proc.devRef .tc main_arg8) = V (Proc.devRef .tc main_arg8) := by
  simp only [after_app]
  after_results_simp
theorem arg9_eq (V : Valuation τ sig (Elt F)) : after ops V (Proc.devRef .tc main_arg9) = V (Proc.devRef .tc main_arg9) := by
  simp only [after_app]
  after_results_simp
theorem arg10_eq (V : Valuation τ sig (Elt F)) : after ops V (Proc.devRef .tc main_arg10) = V (Proc.devRef .tc main_arg10) := by
  simp only [after_app]
  after_results_simp
theorem arg11_eq (V : Valuation τ sig (Elt F)) : after ops V (Proc.devRef .tc main_arg11) = V (Proc.devRef .tc main_arg11) := by
  simp only [after_app]
  after_results_simp

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67) = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v67).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_seq scopedRefs_eq scopedSems_eq defs main (fun _ => ops) main_eq (fun _ => ops_sub) m ρ)

end Cert.ReferenceIdeal.RRun

end
-- ==== Proof.RValue.lean ====
/-
  The reference's result term is the specification, entry by entry, on the extended reals.

  Every operation of the term is read at one index: a slice, a shape cast or a broadcast reads its operand at one
  index; a general contraction with one contracted axis is the textbook sum of products; a sum over the columns is the
  initial value, zero, plus the sum of the row's entries; the row maximum is the fold of max from −∞, and taking the
  maximum of −∞ and that fold changes nothing; quotient, square root, exponential and logarithm act entrywise.
  Read this way the two graph convolutions, the two layer normalisations, the leaky rectifier, the last linear map
  and the log-softmax are, operation for operation, the row functions of the specification.
-/
import proofs.«127625_g41712722379509_cont_8to1_b_1307_6_alg».proof.Proof.Spec
import proofs.«127625_g41712722379509_cont_8to1_b_1307_6_alg».proof.Proof.RefTerm
import proofs.«127625_g41712722379509_cont_8to1_b_1307_6_alg».proof.Proof.LibPlainProduct
import proofs.«127625_g41712722379509_cont_8to1_b_1307_6_alg».proof.Proof.LibColumnBroadcast
import Idealize.ShloMosaic.Lib.IdealHost
import Idealize.ShloMosaic.Lib.ValueLayout

noncomputable section

namespace Cert.ReferenceIdeal.RValue

open Cert.ReferenceIdeal Cert.ReferenceIdeal.Facts₀ Cert.ReferenceIdeal.RefTerm
open Idealize.ShloMosaic Idealize.ShloMosaic.ValueIdx
open scoped BigOperators

/-! ## Broadcasts along one axis, read at an entry -/

section Layout
variable {α : Type}

/-- A vector of length `b` laid out as one row reads, at `(u, c)`, the vector's entry `c`. -/
theorem bid_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- One row repeated down `a` rows reads, at `(p, c)`, the row's entry `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector of length `a` laid out as one column reads, at `(p, u)`, the vector's entry `p`. -/
theorem bid_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- One column repeated across `b` columns reads, at `(p, c)`, the column's entry `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Layout

variable [Facts]

/-! ## The term's layout operations -/

/-- Adjacency matrix 0 at `(r, n)` is the stack at `(0, r, n)`. -/
theorem adj0_apply (a : FVec Ideal S2x8192x8192 .f32) (r n : Fin 8192) : adj0 a (ix2 r n) = a (ix3 (0 : Fin 2) r n) := by
  unfold adj0
  refine (shapeCast_1ab_ab_apply _ _ r n).trans ?_
  refine extractStridedSlice_apply _ a _ _ (ix3 (0 : Fin 2) r n) fun ax => ?_
  match ax with
  | ⟨0, _⟩ => rfl
  | ⟨1, _⟩ => exact (Nat.zero_add _).symm
  | ⟨2, _⟩ => exact (Nat.zero_add _).symm

/-- Adjacency matrix 1 at `(r, n)` is the stack at `(1, r, n)`. -/
theorem adj1_apply (a : FVec Ideal S2x8192x8192 .f32) (r n : Fin 8192) : adj1 a (ix2 r n) = a (ix3 (1 : Fin 2) r n) := by
  unfold adj1
  refine (shapeCast_1ab_ab_apply _ _ r n).trans ?_
  refine extractStridedSlice_apply _ a _ _ (ix3 (1 : Fin 2) r n) fun ax => ?_
  match ax with
  | ⟨0, _⟩ => rfl
  | ⟨1, _⟩ => exact (Nat.zero_add _).symm
  | ⟨2, _⟩ => exact (Nat.zero_add _).symm

/-- A vector repeated down the rows reads its entry of the column. -/
theorem rows128_apply (b : FVec Ideal S128 .f32) (r : Fin 8192) (k : Fin 128) : rows128 b (ix2 r k) = b (ix1 k) := by
  unfold rows128
  exact (bid_1b_ab_apply _ _ r k).trans (bid_b_1b_apply b _ 0 k)

theorem rows64_apply (b : FVec Ideal S64 .f32) (r : Fin 8192) (k : Fin 64) : rows64 b (ix2 r k) = b (ix1 k) := by
  unfold rows64
  exact (bid_1b_ab_apply _ _ r k).trans (bid_b_1b_apply b _ 0 k)

/-- A literal column reads the literal's extended real everywhere. -/
theorem col_apply (bits : BitVec 32) (j : S8192x1.Idx) : col (F := Ideal) bits j = Ideal.ofBits .f32 bits := by
  unfold col
  exact broadcastInDim_scalar_apply _ _ j

/-! ## Products, sums over the columns, the row maximum -/

/-- The dimension numbers of every contraction of the term are those of a plain matrix product. -/
theorem plain_xW0 : Cert.Lib.PlainProduct.IsPlain dot_S8192x128_S128x128_S8192x128_1_0_0_1_n_n := ⟨rfl, rfl, rfl, rfl, rfl, rfl⟩
theorem plain_A0 : Cert.Lib.PlainProduct.IsPlain dot_S8192x8192_S8192x128_S8192x128_1_0_0_1_n_n := ⟨rfl, rfl, rfl, rfl, rfl, rfl⟩
theorem plain_yW1 : Cert.Lib.PlainProduct.IsPlain dot_S8192x128_S128x64_S8192x64_1_0_0_1_n_n := ⟨rfl, rfl, rfl, rfl, rfl, rfl⟩
theorem plain_A1 : Cert.Lib.PlainProduct.IsPlain dot_S8192x8192_S8192x64_S8192x64_1_0_0_1_n_n := ⟨rfl, rfl, rfl, rfl, rfl, rfl⟩
theorem plain_zWl : Cert.Lib.PlainProduct.IsPlain dot_S8192x64_S64x64_S8192x64_1_0_0_1_n_n := ⟨rfl, rfl, rfl, rfl, rfl, rfl⟩

/-- x·W₀ at `(i, j)`. -/
theorem dot_xW0_apply (A : FVec Ideal S8192x128 .f32) (B : FVec Ideal S128x128 .f32) (i : Fin 8192) (j : Fin 128) :
    Host.dotGeneral dot_S8192x128_S128x128_S8192x128_1_0_0_1_n_n none A B (ix2 i j) = ∑ k : Fin 128, A (ix2 i k) * B (ix2 k j) :=
  Cert.Lib.PlainProduct.dotGeneral_apply plain_xW0 rfl rfl none .single A B i j

/-- A₀·S at `(i, j)`. -/
theorem dot_A0_apply (A : FVec Ideal S8192x8192 .f32) (B : FVec Ideal S8192x128 .f32) (i : Fin 8192) (j : Fin 128) :
    Host.dotGeneral dot_S8192x8192_S8192x128_S8192x128_1_0_0_1_n_n none A B (ix2 i j) = ∑ k : Fin 8192, A (ix2 i k) * B (ix2 k j) :=
  Cert.Lib.PlainProduct.dotGeneral_apply plain_A0 rfl rfl none .single A B i j

/-- y·W₁ at `(i, j)`. -/
theorem dot_yW1_apply (A : FVec Ideal S8192x128 .f32) (B : FVec Ideal S128x64 .f32) (i : Fin 8192) (j : Fin 64) :
    Host.dotGeneral dot_S8192x128_S128x64_S8192x64_1_0_0_1_n_n none A B (ix2 i j) = ∑ k : Fin 128, A (ix2 i k) * B (ix2 k j) :=
  Cert.Lib.PlainProduct.dotGeneral_apply plain_yW1 rfl rfl none .single A B i j

/-- A₁·S at `(i, j)`. -/
theorem dot_A1_apply (A : FVec Ideal S8192x8192 .f32) (B : FVec Ideal S8192x64 .f32) (i : Fin 8192) (j : Fin 64) :
    Host.dotGeneral dot_S8192x8192_S8192x64_S8192x64_1_0_0_1_n_n none A B (ix2 i j) = ∑ k : Fin 8192, A (ix2 i k) * B (ix2 k j) :=
  Cert.Lib.PlainProduct.dotGeneral_apply plain_A1 rfl rfl none .single A B i j

/-- z·Wl at `(i, j)`. -/
theorem dot_zWl_apply (A : FVec Ideal S8192x64 .f32) (B : FVec Ideal S64x64 .f32) (i : Fin 8192) (j : Fin 64) :
    Host.dotGeneral dot_S8192x64_S64x64_S8192x64_1_0_0_1_n_n none A B (ix2 i j) = ∑ k : Fin 64, A (ix2 i k) * B (ix2 k j) :=
  Cert.Lib.PlainProduct.dotGeneral_apply plain_zWl rfl rfl none .single A B i j

/-- The index of row `r` with column `k` put back is `(r, k)`. -/
theorem lift128 (h : S8192x128.Reduces [1] S8192) (r : Fin 8192) (k : Fin 128) : h.lift (ix1 r) k = ix2 r k := by
  funext c
  match c with
  | ⟨0, _⟩ => rfl
  | ⟨1, _⟩ => rfl

theorem lift64 (h : S8192x64.Reduces [1] S8192) (r : Fin 8192) (k : Fin 64) : h.lift (ix1 r) k = ix2 r k := by
  funext c
  match c with
  | ⟨0, _⟩ => rfl
  | ⟨1, _⟩ => rfl

/-- The sum over the 128 columns from the initial value zero, at row `r`: the sum of the row's entries. -/
theorem rowsum128_apply (h : FVec Ideal S8192x128 .f32) (r : Fin 8192) :
    Host.reduceAdd h (constant (F := Ideal) S_ .f32 0x00000000#32) reducesTo_S8192x128_S8192_d1 h_S_ (ix1 r)
      = ∑ k : Fin 128, h (ix2 r k) := by
  have hR : S8192x128.Reduces [1] S8192 := by decide
  rw [hostReduceAdd_apply, Ideal.hostReduceAdd_single reducesTo_S8192x128_S8192_d1 hR, constant_apply,
    Ideal.ofBits_zero_f32, zero_add]
  exact Finset.sum_congr rfl fun k _ => congrArg h (lift128 hR r k)

/-- The sum over the 64 columns from the initial value zero, at row `r`. -/
theorem rowsum64_apply (h : FVec Ideal S8192x64 .f32) (r : Fin 8192) :
    Host.reduceAdd h (constant (F := Ideal) S_ .f32 0x00000000#32) reducesTo_S8192x64_S8192_d1 h_S_ (ix1 r)
      = ∑ k : Fin 64, h (ix2 r k) := by
  have hR : S8192x64.Reduces [1] S8192 := by decide
  rw [hostReduceAdd_apply, Ideal.hostReduceAdd_single reducesTo_S8192x64_S8192_d1 hR, constant_apply,
    Ideal.ofBits_zero_f32, zero_add]
  exact Finset.sum_congr rfl fun k _ => congrArg h (lift64 hR r k)

/-- The maximum over the 64 columns folded from −∞, at row `r`: the row's maximum. -/
theorem rowmax64_apply (o : FVec Ideal S8192x64 .f32) (r : Fin 8192) :
    Host.reduce FloatOps.maximumf o (constant (F := Ideal) S_ .f32 0xFF800000#32) reducesTo_S8192x64_S8192_d1 h_S_ (ix1 r)
      = Spec.rowMax fun q => o (ix2 r q) := by
  have hR : S8192x64.Reduces [1] S8192 := by decide
  rw [Host.reduce_eq_fold_single FloatOps.maximumf o _ reducesTo_S8192x64_S8192_d1 hR h_S_ (ix1 r)]
  unfold Spec.rowMax
  have e : (o ∘ hR.lift (ix1 r)) = fun q => o (ix2 r q) := funext fun q => congrArg o (lift64 hR r q)
  rw [e]
  rfl

/-! ## The stages of the term, each at one entry -/

/-- The first graph convolution at `(r, k)`: row `r` of A₀ through x·W₀, plus b₀. -/
theorem gcn1_apply (x : FVec Ideal S8192x128 .f32) (a : FVec Ideal S2x8192x8192 .f32) (W0 : FVec Ideal S128x128 .f32)
    (b0 : FVec Ideal S128 .f32) (r : Fin 8192) (k : Fin 128) :
    gcn1 x a W0 b0 (ix2 r k)
      = Spec.mix (fun n => a (ix3 (0 : Fin 2) r n)) (Spec.prod x W0) (fun q => b0 (ix1 q)) k := by
  unfold gcn1 Spec.mix
  rw [addf_apply, dot_A0_apply, rows128_apply]
  refine congrArg (· + b0 (ix1 k)) (Finset.sum_congr rfl fun n _ => ?_)
  rw [adj0_apply, dot_xW0_apply]
  rfl

/-- The row mean at row `r`. -/
theorem mean128_apply (h : FVec Ideal S8192x128 .f32) (r : Fin 8192) (u : Fin 1) :
    mean128 h (ix2 r u) = Spec.mean Spec.c128 fun q => h (ix2 r q) := by
  unfold mean128 Spec.mean
  rw [hostDivf_apply, bid_a_a1_apply, rowsum128_apply, col_apply]

/-- The centred array at `(r, k)`. -/
theorem centered128_apply (h : FVec Ideal S8192x128 .f32) (r : Fin 8192) (k : Fin 128) :
    centered128 h (ix2 r k) = h (ix2 r k) - Spec.mean Spec.c128 fun q => h (ix2 r q) := by
  unfold centered128
  rw [subf_apply, bid_a1_ab_apply, mean128_apply]

/-- Layer normalisation over the 128 columns at `(r, k)`. -/
theorem ln128_apply (h : FVec Ideal S8192x128 .f32) (g be : FVec Ideal S128 .f32) (r : Fin 8192) (k : Fin 128) :
    ln128 h g be (ix2 r k)
      = Spec.norm Spec.c128 (fun q => h (ix2 r q)) (fun q => g (ix1 q)) (fun q => be (ix1 q)) k := by
  unfold ln128 Spec.norm Spec.var
  rw [addf_apply, mulf_apply, hostDivf_apply, rows128_apply, rows128_apply, centered128_apply, bid_a1_ab_apply]
  show Ideal.div _ (Ideal.sqrt _) * _ + _ = _
  rw [addf_apply, hostDivf_apply, bid_a_a1_apply, rowsum128_apply, col_apply, col_apply]
  refine congrArg (fun v => Ideal.div _ (Ideal.sqrt (Ideal.div v _ + _)) * _ + _) (Finset.sum_congr rfl fun q _ => ?_)
  rw [mulf_apply, centered128_apply]

/-- Row `n` of S₁: the normalised first convolution through W₁. -/
theorem s1_apply (x : FVec Ideal S8192x128 .f32) (a : FVec Ideal S2x8192x8192 .f32) (W0 : FVec Ideal S128x128 .f32)
    (b0 g0 be0 : FVec Ideal S128 .f32) (W1 : FVec Ideal S128x64 .f32) (n : Fin 8192) (j : Fin 64) :
    Host.dotGeneral dot_S8192x128_S128x64_S8192x64_1_0_0_1_n_n none (ln128 (gcn1 x a W0 b0) g0 be0) W1 (ix2 n j)
      = Spec.S1 x a W0 b0 g0 be0 W1 n j := by
  unfold Spec.S1 Spec.rowB
  rw [dot_yW1_apply]
  refine Finset.sum_congr rfl fun k _ => ?_
  rw [ln128_apply]
  have e : (fun q => gcn1 x a W0 b0 (ix2 n q))
      = Spec.mix (fun m => a (ix3 (0 : Fin 2) n m)) (Spec.prod x W0) (fun q => b0 (ix1 q)) :=
    funext fun q => gcn1_apply x a W0 b0 n q
  rw [e]

/-- The second graph convolution at `(r, k)`: row `r` of A₁ through S₁, plus b₁. -/
theorem gcn2_apply (x : FVec Ideal S8192x128 .f32) (a : FVec Ideal S2x8192x8192 .f32) (W0 : FVec Ideal S128x128 .f32)
    (b0 g0 be0 : FVec Ideal S128 .f32) (W1 : FVec Ideal S128x64 .f32) (b1 : FVec Ideal S64 .f32) (r : Fin 8192) (k : Fin 64) :
    gcn2 (ln128 (gcn1 x a W0 b0) g0 be0) a W1 b1 (ix2 r k)
      = Spec.mix (fun n => a (ix3 (1 : Fin 2) r n)) (Spec.S1 x a W0 b0 g0 be0 W1) (fun q => b1 (ix1 q)) k := by
  unfold gcn2 Spec.mix
  rw [addf_apply, dot_A1_apply, rows64_apply]
  refine congrArg (· + b1 (ix1 k)) (Finset.sum_congr rfl fun n _ => ?_)
  rw [adj1_apply, s1_apply]

/-- The row mean at row `r`, 64 columns. -/
theorem mean64_apply (h : FVec Ideal S8192x64 .f32) (r : Fin 8192) (u : Fin 1) :
    mean64 h (ix2 r u) = Spec.mean Spec.c64 fun q => h (ix2 r q) := by
  unfold mean64 Spec.mean
  rw [hostDivf_apply, bid_a_a1_apply, rowsum64_apply, col_apply]

/-- The centred array at `(r, k)`, 64 columns. -/
theorem centered64_apply (h : FVec Ideal S8192x64 .f32) (r : Fin 8192) (k : Fin 64) :
    centered64 h (ix2 r k) = h (ix2 r k) - Spec.mean Spec.c64 fun q => h (ix2 r q) := by
  unfold centered64
  rw [subf_apply, bid_a1_ab_apply, mean64_apply]

/-- Layer normalisation over the 64 columns at `(r, k)`. -/
theorem ln64_apply (h : FVec Ideal S8192x64 .f32) (g be : FVec Ideal S64 .f32) (r : Fin 8192) (k : Fin 64) :
    ln64 h g be (ix2 r k)
      = Spec.norm Spec.c64 (fun q => h (ix2 r q)) (fun q => g (ix1 q)) (fun q => be (ix1 q)) k := by
  unfold ln64 Spec.norm Spec.var
  rw [addf_apply, mulf_apply, hostDivf_apply, rows64_apply, rows64_apply, centered64_apply, bid_a1_ab_apply]
  show Ideal.div _ (Ideal.sqrt _) * _ + _ = _
  rw [addf_apply, hostDivf_apply, bid_a_a1_apply, rowsum64_apply, col_apply, col_apply]
  refine congrArg (fun v => Ideal.div _ (Ideal.sqrt (Ideal.div v _ + _)) * _ + _) (Finset.sum_congr rfl fun q _ => ?_)
  rw [mulf_apply, centered64_apply]

/-- The leaky rectifier at an entry. -/
theorem leaky_apply (h : FVec Ideal S8192x64 .f32) (j : S8192x64.Idx) : leaky h j = Spec.leaky (h j) := by
  unfold leaky Spec.leaky
  rw [select_apply, cmpf_apply, mulf_apply, broadcastInDim_scalar_apply, broadcastInDim_scalar_apply]
  rfl

/-- The last linear map at `(r, j)`. -/
theorem head_apply (z : FVec Ideal S8192x64 .f32) (Wl : FVec Ideal S64x64 .f32) (bl : FVec Ideal S64 .f32) (r : Fin 8192) (j : Fin 64) :
    head z Wl bl (ix2 r j) = Spec.mix (fun k => z (ix2 r k)) (fun k c => Wl (ix2 k c)) (fun q => bl (ix1 q)) j := by
  unfold head Spec.mix
  rw [addf_apply, dot_zWl_apply, rows64_apply]

/-- The array minus its row maxima at `(r, j)`: the maximum of −∞ and the row's maximum is the row's maximum. -/
theorem shifted_apply (o : FVec Ideal S8192x64 .f32) (r : Fin 8192) (j : Fin 64) :
    shifted o (ix2 r j) = o (ix2 r j) - Spec.rowMax fun q => o (ix2 r q) := by
  unfold shifted
  rw [subf_apply, bid_a1_ab_apply, bid_a_a1_apply, maximumf_apply, rowmax64_apply, broadcastInDim_scalar_apply, constant_apply]
  refine congrArg (o (ix2 r j) - ·) (max_eq_right ?_)
  unfold Spec.rowMax
  exact (Finset.le_fold_max _).mpr (Or.inl le_rfl)

/-- The log-softmax at `(r, j)`. -/
theorem logSoftmax_apply (o : FVec Ideal S8192x64 .f32) (r : Fin 8192) (j : Fin 64) :
    logSoftmax o (ix2 r j) = Spec.lsm (fun q => o (ix2 r q)) j := by
  unfold logSoftmax Spec.lsm
  rw [subf_apply, shifted_apply, bid_a1_ab_apply]
  show _ - Ideal.log _ = _
  rw [bid_a_a1_apply, rowsum64_apply]
  refine congrArg (fun v => _ - Ideal.log v) (Finset.sum_congr rfl fun q _ => ?_)
  show Ideal.exp _ = _
  rw [shifted_apply]

/-! ## The whole term -/

/-- The reference's result term is the specification. -/
theorem result_eq (x : FVec Ideal S8192x128 .f32) (a : FVec Ideal S2x8192x8192 .f32) (W0 : FVec Ideal S128x128 .f32)
    (b0 g0 be0 : FVec Ideal S128 .f32) (W1 : FVec Ideal S128x64 .f32) (b1 g1 be1 : FVec Ideal S64 .f32)
    (Wl : FVec Ideal S64x64 .f32) (bl : FVec Ideal S64 .f32) :
    Cert.ReferenceIdeal.RefTerm.result (F := Ideal) x a W0 b0 g0 be0 W1 b1 g1 be1 Wl bl
      = Cert.Spec.G x a W0 b0 g0 be0 W1 b1 g1 be1 Wl bl := by
  funext j
  obtain ⟨r, c, rfl⟩ : ∃ (r : Fin 8192) (c : Fin 64), j = ix2 r c := ⟨j 0, j 1, eq_ix2 j⟩
  unfold result Spec.G Spec.rowC
  rw [Spec.asArr2_ix2, logSoftmax_apply]
  refine congrArg (fun o => Spec.lsm o c) (funext fun q => ?_)
  rw [head_apply]
  refine congrArg (fun z => Spec.mix z _ _ q) (funext fun k => ?_)
  rw [leaky_apply, ln64_apply]
  refine congrArg (fun h => Spec.leaky (Spec.norm Spec.c64 h _ _ k)) (funext fun m => ?_)
  exact gcn2_apply x a W0 b0 g0 be0 W1 b1 r m

end Cert.ReferenceIdeal.RValue

end
-- ==== Proof.lean ====
/-
  The certificate of a two-layer graph convolution: three kernels — S₀ = x·W₀; then, per block of 512 rows,
  S₁ = LN(A₀·S₀ + b₀)·W₁; then logsoftmax(leaky(LN(A₁·S₁ + b₁))·Wl + bl) — against the plain array program
  logsoftmax(leaky(LN(A₁·(LN(A₀·(x·W₀) + b₀)·W₁) + b₁))·Wl + bl).

  On the extended reals the two compute ONE function of the argument arrays, `Spec.G` (Proof/Spec.lean): every row of S₁
  and of the result depends on one adjacency row only, so the kernels' blocks of rows are restrictions of the whole-array
  function; a change of float format is the identity; a matrix product into a zero accumulator and a general contraction are
  the same sum; and the one place where the two texts differ — the kernels multiply by the reciprocal square root of
  variance + ε where the reference divides by its square root — is an identity because variance + ε is positive whatever
  the arrays hold (Proof/SpecLaws.lean). The precondition is not used by the value claim.

  The kernel program's run ends with its result array at `Spec.G` of the launch arrays (Proof/KRun.lean, over the payloads
  read at an entry in Proof/KPay.lean and the blocks joined in Proof/KBlocks.lean); the reference's run ends at its composed
  term (Proof/RRun.lean), which is `Spec.G` entry by entry (Proof/RValue.lean). The ideal pass rewrote nothing, so the
  idealization claim is trivial.
-/
import proofs.«127625_g41712722379509_cont_8to1_b_1307_6_alg».proof.Defs
import proofs.«127625_g41712722379509_cont_8to1_b_1307_6_alg».proof.Proof.Gen.Kernel
import proofs.«127625_g41712722379509_cont_8to1_b_1307_6_alg».proof.Proof.Gen.Kernel.Frame
import proofs.«127625_g41712722379509_cont_8to1_b_1307_6_alg».proof.Proof.Gen.KernelIdeal
import proofs.«127625_g41712722379509_cont_8to1_b_1307_6_alg».proof.Proof.Gen.KernelIdeal.Frame
import proofs.«127625_g41712722379509_cont_8to1_b_1307_6_alg».proof.Proof.Gen.ReferenceIdeal
import proofs.«127625_g41712722379509_cont_8to1_b_1307_6_alg».proof.Proof.Gen.Pre_finite_inputs
import proofs.«127625_g41712722379509_cont_8to1_b_1307_6_alg».proof.Proof.KRun
import proofs.«127625_g41712722379509_cont_8to1_b_1307_6_alg».proof.Proof.RRun
import proofs.«127625_g41712722379509_cont_8to1_b_1307_6_alg».proof.Proof.RValue

noncomputable section

namespace Cert.Proof

open Idealize.ShloMosaic Idealize.SL.Sem

/-- The kernel program as printed runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.RRun.run m ρ)

/-- From memories agreeing on the arguments both programs end with their results at `Spec.G` of those arguments. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RRun.run m' ρ')
  obtain ⟨e0, e1, e2, e3, e4, e5, e6, e7, e8, e9, e10, e11⟩ := hagree c
  rw [Cert.ReferenceIdeal.RValue.result_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
